-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg17 : FVec F S128 .f32) (main_arg21 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_cst_40 : FVec F S_ .f32 := constant S_ .f32 0x00000000#32
  let main_v104 : FVec F S128 .f32 := broadcastInDim S128 ![] bcast_S_S128 main_cst_40
  let main_v105 : IVec S128 1 := cmpf .oge main_arg17 main_v104
  let main_c_41 : IVec S_ 1 := constantI S_ 1 1#1
  let main_v106 : IVec S_ 1 := (fun x v => Host.reduce IntOp.andi x v reducesTo_S128_S_d0 h_S_) main_v105 main_c_41
  let main_v107 : IVec S_ 1 := andi main_v103 main_v106
  let main_cst_42 : FVec F S_ .f32 := constant S_ .f32 0x00000000#32
  let main_v108 : FVec F S128 .f32 := broadcastInDim S128 ![] bcast_S_S128 main_cst_42
  let main_v109 : IVec S128 1 := cmpf .oge main_arg21 main_v108
  let main_c_43 : IVec S_ 1 := constantI S_ 1 1#1
  let main_v110 : IVec S_ 1 := (fun x v => Host.reduce IntOp.andi x v reducesTo_S128_S_d0 h_S_) main_v109 main_c_43
  let main_v111 : IVec S_ 1 := andi main_v107 main_v110
  main_v111

def fn_part5 {F : FTy → Type} [FloatOps F] (main_arg17 : FVec F S128 .f32) (main_arg19 : FVec F S128 .f32) (main_arg20 : FVec F S128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg17 main_arg21 main_v98 main_v101 main_c_39

def fn_part4 {F : FTy → Type} [FloatOps F] (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg17 main_arg19 main_arg20 main_arg21 main_v83 main_v84 main_cst_32

def fn_part3 {F : FTy → Type} [FloatOps F] (main_arg12 : FVec F S128x64 .f32) (main_arg13 : FVec F S64 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x64 .f32) (main_arg13 : FVec F S64 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x64 .f32) (main_arg13 : FVec F S64 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩
abbrev S1x64 : Shape := ⟨2, ![1, 64]⟩
abbrev S100000x64 : Shape := ⟨2, ![100000, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 102
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x1600000, .i32⟩
  | .hbm, ⟨23, _⟩ => ⟨S1600000, .i32⟩
  | .hbm, ⟨24, _⟩ => ⟨S1x1600000, .i32⟩
  | .hbm, ⟨25, _⟩ => ⟨S1600000, .i32⟩
  | .hbm, ⟨26, _⟩ => ⟨S100000x128, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .bf16⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S128x128, .f32⟩
  | .hbm, ⟨48, _⟩ => ⟨S128x128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S1x128, .f32⟩
  | .hbm, ⟨54, _⟩ => ⟨S100000x128, .f32⟩
  | .hbm, ⟨55, _⟩ => ⟨S100000x128, .bf16⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .bf16⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S128x128, .f32⟩
  | .hbm, ⟨77, _⟩ => ⟨S128x128, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S1x128, .f32⟩
  | .hbm, ⟨83, _⟩ => ⟨S100000x128, .f32⟩
  | .hbm, ⟨84, _⟩ => ⟨S100000x128, .bf16⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .bf16⟩
  | .hbm, ⟨94, _⟩ => ⟨S1600000x128, .f32⟩
  | .hbm, ⟨95, _⟩ => ⟨S_, .f32⟩
  | .hbm, ⟨96, _⟩ => ⟨S100000x128, .f32⟩
  | .hbm, ⟨97, _⟩ => ⟨S1600000x1, .i32⟩
  | .hbm, ⟨98, _⟩ => ⟨S100000x128, .f32⟩
  | .hbm, ⟨99, _⟩ => ⟨S1x128, .f32⟩
  | .hbm, ⟨100, _⟩ => ⟨S1x64, .f32⟩
  | .hbm, ⟨101, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S128x128, .f32⟩
  | .local _ .vmem, ⟨25, _⟩ => ⟨S1x128, .f32⟩
  | .local _ .vmem, ⟨26, _⟩ => ⟨S128x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_2 : Ref sig .tc := ⟨.hbm, 56, rfl⟩
abbrev main_v30 : Ref sig .tc := ⟨.hbm, 57, rfl⟩
abbrev main_v31 : Ref sig .tc := ⟨.hbm, 58, rfl⟩
abbrev main_c_3 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_6 : Ref sig .tc := ⟨.hbm, 85, rfl⟩
abbrev main_v55 : Ref sig .tc := ⟨.hbm, 86, rfl⟩
abbrev main_v56 : Ref sig .tc := ⟨.hbm, 87, rfl⟩
abbrev main_c_7 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_8 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S128 : S_.BroadcastsInDim S128 (![] : Fin 0 → Fin S128.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S128x128_S128x128 : S128x128.ShapeCasts S128x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v15) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v65) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x64, .f32⟩
  | 13 => ⟨S64, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S1x1600000, .i32⟩
  | 23 => ⟨S1600000, .i32⟩
  | 24 => ⟨S1x1600000, .i32⟩
  | 25 => ⟨S1600000, .i32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x128, .f32⟩
  | 35 => ⟨S_, .f32⟩
  | 36 => ⟨S100000x128, .f32⟩
  | 37 => ⟨S1600000x1, .i32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S128, .f32⟩
  | 101 => ⟨S128, .f32⟩
  | 102 => ⟨S128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x64, .f32⟩
  | 20 => ⟨S100000x64, .f32⟩
  | 21 => ⟨S100000x64, .f32⟩
  | 22 => ⟨S_, .f32⟩
  | 23 => ⟨S100000, .f32⟩
  | 24 => ⟨S100000x1, .f32⟩
  | 25 => ⟨S100000x1, .f32⟩
  | 26 => ⟨S100000x64, .f32⟩
  | 27 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call0_cst : Ref sig .tc := ⟨.hbm, 44, rfl⟩
abbrev main_call0_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_1 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call1_cst : Ref sig .tc := ⟨.hbm, 67, rfl⟩
abbrev main_call1_v0 : Ref sig .tc := ⟨.hbm, 68, rfl⟩
abbrev main_v39 : Ref sig .tc := ⟨.hbm, 69, rfl⟩
abbrev main_v40 : Ref sig .tc := ⟨.hbm, 70, rfl⟩
abbrev main_c_2 : Ref sig .tc := ⟨.hbm, 71, rfl⟩
abbrev main_v41 : Ref sig .tc := ⟨.hbm, 72, rfl⟩
abbrev main_v42 : Ref sig .tc := ⟨.hbm, 73, rfl⟩
abbrev main_c_3 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_4 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call2_cst : Ref sig .tc := ⟨.hbm, 89, rfl⟩
abbrev main_call2_v0 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_5 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_call3_cst : Ref sig .tc := ⟨.hbm, 112, rfl⟩
abbrev main_call3_v0 : Ref sig .tc := ⟨.hbm, 113, rfl⟩
abbrev main_v76 : Ref sig .tc := ⟨.hbm, 114, rfl⟩
abbrev main_v77 : Ref sig .tc := ⟨.hbm, 115, rfl⟩
abbrev main_c_6 : Ref sig .tc := ⟨.hbm, 116, rfl⟩
abbrev main_v78 : Ref sig .tc := ⟨.hbm, 117, rfl⟩
abbrev main_v79 : Ref sig .tc := ⟨.hbm, 118, rfl⟩
abbrev main_c_7 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_8 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call4_cst : Ref sig .tc := ⟨.hbm, 134, rfl⟩
abbrev main_call4_v0 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_call5_cst : Ref sig .tc := ⟨.hbm, 141, rfl⟩
abbrev main_call5_v0 : Ref sig .tc := ⟨.hbm, 142, rfl⟩
abbrev main_call5_cst_0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_v6 : Ref sig .tc := ⟨.hbm, 149, rfl⟩
abbrev main_call5_cst_1 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_v98 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The kernel program's run with its result named: every weakly fair execution of the whole program (three kernel
  launches among host operations) terminates, nothing faulting, with the result buffer holding the contents that the
  last boundary of the run assigns to it, and the argument arrays as launched.
-/
import proofs.«153170_j87926570483778_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, read against the final state at the result buffer as well as at the arguments. -/
theorem run_value : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c)⟩)

end Cert.KernelIdeal.Gen

end
-- ==== Proof.Spec.lean ====
/-
  A three-layer graph network with sum aggregation, per node: the dense chain of one layer stated once over the
  extended reals, and the one algebraic law that the two programs differ by.

  A layer takes the aggregated features `a` (a node's own row plus the sum of its in-neighbours' rows), and computes
  `lin a W1 b1 W2 b2 r j = ∑ k, relu(∑ l, a[r,l]·W1[l,k] + b1[k]) · W2[k,j] + b2[j]`.
  The first two layers apply an affine normalisation per column, `bn z m rs g be = (z - m)·rs·g + be`, then
  `relu` and the residual `+ x`; the last layer applies a row-wise log-softmax.
  The normalisation may be folded into the second linear map: scaling column `j` of `W2` by `g j · rs j` and replacing
  the bias by `(b2 j - m j)·(g j · rs j) + be j` gives the same value (`lin_fold`) — a use of distributivity, which on the
  extended reals needs every quantity to be a real number; the lemmas before it carry that through sums, products and maxima.
-/
import Idealize.ShloMosaic.PureOps.Ideal
import Idealize.ShloMosaic.Lib.ValueIdx

noncomputable section

open scoped BigOperators

namespace Cert.GinSpec

open Idealize.ShloMosaic Idealize.ShloMosaic.ValueIdx

abbrev SW : Shape := ⟨2, ![128, 128]⟩

variable {N : Nat}

/-! ## The layer -/

/-- The hidden activation `k` of node `r`: `relu (a[r,:] · W1[:,k] + b1[k])`. -/
def hid (a : (⟨2, ![N, 128]⟩ : Shape).Idx → EReal) (W1 : SW.Idx → EReal) (b1 : Fin 128 → EReal) (r : Fin N) (k : Fin 128) : EReal :=
  max (∑ l : Fin 128, a (ix2 r l) * W1 (ix2 l k) + b1 k) 0

/-- The second linear map applied to the hidden activations: output column `j` of node `r`. -/
def lin {n : Nat} (a : (⟨2, ![N, 128]⟩ : Shape).Idx → EReal) (W1 : SW.Idx → EReal) (b1 : Fin 128 → EReal)
    (W2 : (⟨2, ![128, n]⟩ : Shape).Idx → EReal) (b2 : Fin n → EReal) (r : Fin N) (j : Fin n) : EReal :=
  ∑ k : Fin 128, hid a W1 b1 r k * W2 (ix2 k j) + b2 j

/-- `relu` of the layer's pre-activation plus the layer's input (the residual connection). -/
def resid (pre : Fin N → Fin 128 → EReal) (x : (⟨2, ![N, 128]⟩ : Shape).Idx → EReal) : (⟨2, ![N, 128]⟩ : Shape).Idx → EReal :=
  fun i => max (pre (i 0) (i 1)) 0 + x i

/-- The affine normalisation of one entry: mean `m`, reciprocal standard deviation `rs`, gain `g`, shift `be`. -/
def bn (z m rs g be : EReal) : EReal := (z - m) * rs * g + be

/-- A row's maximum, as a fold of `max` from the pattern of `-∞`. -/
def rowMax (z : Fin 64 → EReal) : EReal :=
  (Finset.univ : Finset (Fin 64)).fold max (Ideal.ofBits .f32 0xFF800000#32) z

/-- The row-wise log-softmax: `z - max - log ∑ exp (z - max)`. -/
def lsm (z : Fin N → Fin 64 → EReal) : (⟨2, ![N, 64]⟩ : Shape).Idx → EReal :=
  fun i => (z (i 0) (i 1) - rowMax (z (i 0))) - Ideal.log (∑ q : Fin 64, Ideal.exp (z (i 0) q - rowMax (z (i 0))))

/-- The hidden activations of a node depend on that node's row of the aggregated features only. -/
theorem hid_congr_row {N' : Nat} {a : (⟨2, ![N, 128]⟩ : Shape).Idx → EReal} {a' : (⟨2, ![N', 128]⟩ : Shape).Idx → EReal}
    (W1 : SW.Idx → EReal) (b1 : Fin 128 → EReal) {r : Fin N} {r' : Fin N'} (h : ∀ l : Fin 128, a (ix2 r l) = a' (ix2 r' l))
    (k : Fin 128) : hid a W1 b1 r k = hid a' W1 b1 r' k := by
  unfold hid
  rw [Finset.sum_congr rfl fun l _ => by rw [h l]]

/-- So does the layer's output row. -/
theorem lin_congr_row {n N' : Nat} {a : (⟨2, ![N, 128]⟩ : Shape).Idx → EReal} {a' : (⟨2, ![N', 128]⟩ : Shape).Idx → EReal}
    (W1 : SW.Idx → EReal) (b1 : Fin 128 → EReal) (W2 : (⟨2, ![128, n]⟩ : Shape).Idx → EReal) (b2 : Fin n → EReal)
    {r : Fin N} {r' : Fin N'} (h : ∀ l : Fin 128, a (ix2 r l) = a' (ix2 r' l)) (j : Fin n) :
    lin a W1 b1 W2 b2 r j = lin a' W1 b1 W2 b2 r' j := by
  unfold lin
  rw [Finset.sum_congr rfl fun k _ => by rw [hid_congr_row W1 b1 h k]]

/-! ## Being a real number, through the layer's operations -/

/-- An extended real that is a real number. -/
def IsReal (a : EReal) : Prop := ∃ r : ℝ, a = (r : EReal)

theorem isReal_of_ne {a : EReal} (h : a ≠ ⊤ ∧ a ≠ ⊥) : IsReal a := ⟨a.toReal, (EReal.coe_toReal h.1 h.2).symm⟩

theorem IsReal.ne {a : EReal} (h : IsReal a) : a ≠ ⊤ ∧ a ≠ ⊥ := by
  obtain ⟨r, rfl⟩ := h; exact ⟨EReal.coe_ne_top r, EReal.coe_ne_bot r⟩

theorem isReal_zero : IsReal 0 := ⟨0, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- The embedding of the reals commutes with `max`. -/
theorem coe_max (r s : ℝ) : ((max r s : ℝ) : EReal) = max (r : EReal) (s : EReal) := by
  rcases le_total r s with h | h
  · rw [max_eq_right h, max_eq_right (EReal.coe_le_coe_iff.mpr h)]
  · rw [max_eq_left h, max_eq_left (EReal.coe_le_coe_iff.mpr h)]

theorem IsReal.max {a b : EReal} (ha : IsReal a) (hb : IsReal b) : IsReal (max a b) := by
  obtain ⟨r, rfl⟩ := ha; obtain ⟨s, rfl⟩ := hb; exact ⟨Max.max r s, (coe_max r s).symm⟩

/-- The embedding of the reals commutes with finite sums. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem isReal_sum {ι : Type} (s : Finset ι) (f : ι → EReal) (h : ∀ i ∈ s, IsReal (f i)) : IsReal (∑ i ∈ s, f i) := by
  classical
  induction s using Finset.induction_on with
  | empty => exact ⟨0, by simp⟩
  | insert i s hi ih =>
    rw [Finset.sum_insert hi]
    exact (h i (Finset.mem_insert_self i s)).add (ih fun j hj => h j (Finset.mem_insert_of_mem hj))

theorem hid_real {a : (⟨2, ![N, 128]⟩ : Shape).Idx → EReal} {W1 : SW.Idx → EReal} {b1 : Fin 128 → EReal} (ha : ∀ i, IsReal (a i))
    (hW1 : ∀ i, IsReal (W1 i)) (hb1 : ∀ k, IsReal (b1 k)) (r : Fin N) (k : Fin 128) : IsReal (hid a W1 b1 r k) :=
  (((isReal_sum _ _ fun l _ => (ha _).mul (hW1 _))).add (hb1 k)).max isReal_zero

theorem lin_real {n : Nat} {a : (⟨2, ![N, 128]⟩ : Shape).Idx → EReal} {W1 : SW.Idx → EReal} {b1 : Fin 128 → EReal}
    {W2 : (⟨2, ![128, n]⟩ : Shape).Idx → EReal} {b2 : Fin n → EReal} (ha : ∀ i, IsReal (a i))
    (hW1 : ∀ i, IsReal (W1 i)) (hb1 : ∀ k, IsReal (b1 k)) (hW2 : ∀ i, IsReal (W2 i)) (hb2 : ∀ j, IsReal (b2 j))
    (r : Fin N) (j : Fin n) : IsReal (lin a W1 b1 W2 b2 r j) :=
  (isReal_sum _ _ fun k _ => (hid_real ha hW1 hb1 r k).mul (hW2 _)).add (hb2 j)

theorem resid_real {pre : Fin N → Fin 128 → EReal} {x : (⟨2, ![N, 128]⟩ : Shape).Idx → EReal} (hp : ∀ r j, IsReal (pre r j))
    (hx : ∀ i, IsReal (x i)) (i : (⟨2, ![N, 128]⟩ : Shape).Idx) : IsReal (resid pre x i) :=
  ((hp _ _).max isReal_zero).add (hx i)

/-! ## The normalisation folded into the second linear map -/

/-- Scaling column `j` of the second weight matrix by `g j · rs j` and taking `(b2 j - m j)·(g j · rs j) + be j` for the bias
    is the normalisation of the unscaled layer's output — for real entries: `(∑ k, h k · w k) · s = ∑ k, h k · (w k · s)`. -/
theorem lin_fold {a : (⟨2, ![N, 128]⟩ : Shape).Idx → EReal} {W1 : SW.Idx → EReal} {b1 : Fin 128 → EReal} {W2 : SW.Idx → EReal}
    {b2 m rs g be : Fin 128 → EReal} (ha : ∀ i, IsReal (a i)) (hW1 : ∀ i, IsReal (W1 i)) (hb1 : ∀ k, IsReal (b1 k))
    (hW2 : ∀ i, IsReal (W2 i)) (hb2 : ∀ j, IsReal (b2 j)) (hm : ∀ j, IsReal (m j)) (hrs : ∀ j, IsReal (rs j))
    (hg : ∀ j, IsReal (g j)) (hbe : ∀ j, IsReal (be j)) (r : Fin N) (j : Fin 128) :
    lin a W1 b1 (fun i => W2 i * (g (i 1) * rs (i 1))) (fun j => (b2 j - m j) * (g j * rs j) + be j) r j
      = bn (lin a W1 b1 W2 b2 r j) (m j) (rs j) (g j) (be j) := by
  choose h hh using fun k => hid_real ha hW1 hb1 r k
  choose w hw using fun k => hW2 (ix2 k j)
  obtain ⟨b2', hb2'⟩ := hb2 j; obtain ⟨m', hm'⟩ := hm j; obtain ⟨rs', hrs'⟩ := hrs j
  obtain ⟨g', hg'⟩ := hg j; obtain ⟨be', hbe'⟩ := hbe j
  have e1 : lin a W1 b1 (fun i => W2 i * (g (i 1) * rs (i 1))) (fun j => (b2 j - m j) * (g j * rs j) + be j) r j
      = ∑ k : Fin 128, (h k : EReal) * ((w k : EReal) * ((g' : EReal) * (rs' : EReal)))
        + (((b2' : EReal) - (m' : EReal)) * ((g' : EReal) * (rs' : EReal)) + (be' : EReal)) := by
    unfold lin
    rw [← hb2', ← hm', ← hrs', ← hg', ← hbe']
    exact congrArg (· + _) (Finset.sum_congr rfl fun k _ => by rw [← hh k, ← hw k])
  have e2 : lin a W1 b1 W2 b2 r j = ∑ k : Fin 128, (h k : EReal) * (w k : EReal) + (b2' : EReal) := by
    unfold lin
    rw [← hb2']
    exact congrArg (· + _) (Finset.sum_congr rfl fun k _ => by rw [← hh k, ← hw k])
  rw [e1, e2, hm', hrs', hg', hbe']
  unfold bn
  simp only [← EReal.coe_mul, ← EReal.coe_add, ← EReal.coe_sub, coe_sum]
  refine congrArg _ ?_
  have : ∑ k : Fin 128, h k * (w k * (g' * rs')) = (∑ k : Fin 128, h k * w k) * (g' * rs') := by
    rw [Finset.sum_mul]; exact Finset.sum_congr rfl fun k _ => by ring
  rw [this]; ring

end Cert.GinSpec

end
-- ==== Proof.LibKeepdims.lean ====
/-
  Column forms of a sum kept with its axis (a `keepdims` reduction), read at an index:
  a vector of length a viewed as an a x 1 column reads, at (i, 0), the vector at i; and an a x 1 column broadcast
  to a x b reads, at (i, j), the column at (i, 0).
-/
import Idealize.ShloMosaic.Lib.ValueLayout
import Idealize.ShloMosaic.Lib.ValueIdx
import Idealize.ShloMosaic.Lib.Pipeline.Value

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KBody.lean ====
/-
  One layer's dense chain as the kernel's body computes it on a block of 10000 rows, read at an entry of the block:
  the two matrix products into zero accumulators are sums over the contracted coordinate, the bias rows are broadcast
  down the block, and the last layer's row maximum and row sum are taken along the 64 output columns.
  Each body is then the specification's layer (`Cert.GinSpec`) of its loaded blocks.
-/
import proofs.«153170_j87926570483778_2_alg».proof.Proof.Gen.KernelIdeal.Skeleton
import proofs.«153170_j87926570483778_2_alg».proof.Proof.Spec
import proofs.«153170_j87926570483778_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.GinSpec

/-- A block's product with a `128 × 128` matrix into the zero accumulator, read at row `p`, column `q`: the sum over the
    contracted coordinate. -/
theorem mm128 (l : FVec Ideal S10000x128 .f32) (w : FVec Ideal S128x128 .f32) (p : Fin 10000) (q : Fin 128) :
    matmul dot_S10000x128_S128x128_S10000x128_1_0_0_1_n_n none l w (constant (F := Ideal) S10000x128 .f32 0x00000000#32) (ix2 p q)
      = ∑ k : Fin 128, l (ix2 p k) * w (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ =>
      show (dot_S10000x128_S128x128_S10000x128_1_0_0_1_n_n.lhsIdx (ix2 p q) ((contrEquiv1 dot_S10000x128_S128x128_S10000x128_1_0_0_1_n_n 128 rfl rfl).symm k) 0).val = p.val
      unfold DotDims.lhsIdx
      rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
      rfl
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ =>
      show (dot_S10000x128_S128x128_S10000x128_1_0_0_1_n_n.rhsIdx (ix2 p q) ((contrEquiv1 dot_S10000x128_S128x128_S10000x128_1_0_0_1_n_n 128 rfl rfl).symm k) 1).val = q.val
      unfold DotDims.rhsIdx
      rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
      rfl)
  rw [el, er]

/-- A block's product with a `128 × 64` matrix into the zero accumulator, read at row `p`, column `q`: the sum over the
    contracted coordinate. -/
theorem mm64 (l : FVec Ideal S10000x128 .f32) (w : FVec Ideal S128x64 .f32) (p : Fin 10000) (q : Fin 64) :
    matmul dot_S10000x128_S128x64_S10000x64_1_0_0_1_n_n none l w (constant (F := Ideal) S10000x64 .f32 0x00000000#32) (ix2 p q)
      = ∑ k : Fin 128, l (ix2 p k) * w (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ =>
      show (dot_S10000x128_S128x64_S10000x64_1_0_0_1_n_n.lhsIdx (ix2 p q) ((contrEquiv1 dot_S10000x128_S128x64_S10000x64_1_0_0_1_n_n 128 rfl rfl).symm k) 0).val = p.val
      unfold DotDims.lhsIdx
      rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
      rfl
    | ⟨1, _⟩ => exact (dot_S10000x128_S128x64_S10000x64_1_0_0_1_n_n.lhsIdx_val_of_single rfl _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (dot_S10000x128_S128x64_S10000x64_1_0_0_1_n_n.rhsIdx_val_of_single rfl _ _).trans hk
    | ⟨1, _⟩ =>
      show (dot_S10000x128_S128x64_S10000x64_1_0_0_1_n_n.rhsIdx (ix2 p q) ((contrEquiv1 dot_S10000x128_S128x64_S10000x64_1_0_0_1_n_n 128 rfl rfl).symm k) 1).val = q.val
      unfold DotDims.rhsIdx
      rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
      rfl)
  rw [el, er]

/-- The zero word is the real zero. -/
theorem scalar_zero : (Scalar.ofBits (F := Ideal) .f32 0x00000000#32 : EReal) = 0 := Ideal.ofBits_zero_f32

/-- The exponential of a block, entry by entry. -/
theorem exp_apply {s : Shape} (a : FVec Ideal s .f32) (i : s.Idx) : exp a i = Ideal.exp (a i) := rfl

/-- The logarithm of a block, entry by entry. -/
theorem log_apply {s : Shape} (a : FVec Ideal s .f32) (i : s.Idx) : log a i = Ideal.log (a i) := rfl

/-- The index over row `p` with column `k` inserted. -/
theorem lift_row (p : Fin 10000) (k : Fin (S10000x64.size 1)) : reduces_S10000x64_S10000.lift (ix1 p) k = ix2 p k :=
  funext fun a => Fin.ext (by match a with | ⟨0, _⟩ => rfl | ⟨1, _⟩ => rfl)

/-- The row-wise maximum of a block along its 64 columns, from the pattern of `-∞`. -/
def MX (z : FVec Ideal S10000x64 .f32) : FVec Ideal S10000 .f32 :=
  multiReduction .maximumf [1] S10000 z 0xFF800000#32 reduces_S10000x64_S10000 (.inl rfl) rfl

/-- The row-wise sum of a block along its 64 columns. -/
def SM (y : FVec Ideal S10000x64 .f32) : FVec Ideal S10000 .f32 :=
  multiReduction .add [1] S10000 y 0x00000000#32 reduces_S10000x64_S10000 (.inl rfl) rfl

/-- At row `p` the maximum is the fold of `max` over the row. -/
theorem MX_apply (z : FVec Ideal S10000x64 .f32) (p : Fin 10000) : MX z (ix1 p) = rowMax fun q => z (ix2 p q) := by
  unfold MX
  refine (Ideal.multiReduction_maximumf_single z 0xFF800000#32 reduces_S10000x64_S10000 _ _ (ix1 p)).trans ?_
  have e : (z ∘ reduces_S10000x64_S10000.lift (ix1 p)) = fun q => z (ix2 p q) := funext fun k => congrArg z (lift_row p k)
  exact congrArg (fun f => Finset.fold max (Ideal.ofBits .f32 0xFF800000#32) f Finset.univ) e

/-- At row `p` the sum is the sum over the row. -/
theorem SM_apply (y : FVec Ideal S10000x64 .f32) (p : Fin 10000) : SM y (ix1 p) = ∑ q : Fin 64, y (ix2 p q) := by
  unfold SM
  refine (Ideal.multiReduction_add_single y 0x00000000#32 reduces_S10000x64_S10000 _ _ (ix1 p)).trans ?_
  exact Finset.sum_congr rfl fun k _ => congrArg y (lift_row p k)

/-- The first two layers' body on a block: `relu` of the layer's second linear map, plus the block of the layer's input. -/
theorem k0_pay1_eq (v0 v2 : FVec Ideal S10000x128 .f32) (v4 : FVec Ideal S128x128 .f32) (v6 : FVec Ideal S1x128 .f32)
    (v12 : FVec Ideal S128x128 .f32) (v15 : FVec Ideal S1x128 .f32) (v21 : FVec Ideal S10000x128 .f32) :
    k0_pay1 (F := Ideal) v0 v2 v4 v6 v12 v15 v21
      = resid (lin (fun i => v0 i + v2 i) v4 (fun k => v6 (ix2 (0 : Fin 1) k)) v12 (fun k => v15 (ix2 (0 : Fin 1) k))) v21 := by
  funext i
  obtain ⟨p, q, rfl⟩ : ∃ (p : Fin 10000) (q : Fin 128), i = ix2 p q := ⟨i 0, i 1, eq_ix2 i⟩
  unfold k0_pay1
  simp only [shapeCast_self, addf_apply, maximumf_apply, mm128, broadcastTo_1b_ab_apply, broadcast_apply, scalar_zero]
  rfl

/-- The same for the second layer's body (its extra casts are identities). -/
theorem k1_pay1_eq (v0 v2 : FVec Ideal S10000x128 .f32) (v5 : FVec Ideal S128x128 .f32) (v7 : FVec Ideal S1x128 .f32)
    (v13 : FVec Ideal S128x128 .f32) (v16 : FVec Ideal S1x128 .f32) (v22 : FVec Ideal S10000x128 .f32) :
    k1_pay1 (F := Ideal) v0 v2 v5 v7 v13 v16 v22
      = resid (lin (fun i => v0 i + v2 i) v5 (fun k => v7 (ix2 (0 : Fin 1) k)) v13 (fun k => v16 (ix2 (0 : Fin 1) k))) v22 := by
  funext i
  obtain ⟨p, q, rfl⟩ : ∃ (p : Fin 10000) (q : Fin 128), i = ix2 p q := ⟨i 0, i 1, eq_ix2 i⟩
  unfold k1_pay1
  simp only [shapeCast_self, addf_apply, maximumf_apply, mm128, broadcastTo_1b_ab_apply, broadcast_apply, scalar_zero]
  rfl

/-- The last layer's pre-activations on a block, spelt as the body spells them. -/
def pre2 (v0 v2 : FVec Ideal S10000x128 .f32) (v5 : FVec Ideal S128x128 .f32) (v7 : FVec Ideal S1x128 .f32)
    (v13 : FVec Ideal S128x64 .f32) (v15 : FVec Ideal S1x64 .f32) : FVec Ideal S10000x64 .f32 :=
  addf (matmul dot_S10000x128_S128x64_S10000x64_1_0_0_1_n_n none
      (maximumf (addf (matmul dot_S10000x128_S128x128_S10000x128_1_0_0_1_n_n none
            (addf (shapeCast S10000x128 v0 shapeCasts_S10000x128_S10000x128) (shapeCast S10000x128 v2 shapeCasts_S10000x128_S10000x128)) v5
            (constant (F := Ideal) S10000x128 .f32 0x00000000#32))
          (broadcastTo S10000x128 (shapeCast S1x128 v7 shapeCasts_S1x128_S1x128) broadcasts_S1x128_S10000x128))
        (broadcast S10000x128 (Scalar.ofBits (F := Ideal) .f32 0x00000000#32)))
      v13 (constant (F := Ideal) S10000x64 .f32 0x00000000#32))
    (broadcastTo S10000x64 (shapeCast S1x64 v15 shapeCasts_S1x64_S1x64) broadcasts_S1x64_S10000x64)

/-- A block minus a per-row quantity `mx`, broadcast along the columns. -/
def shift (z : FVec Ideal S10000x64 .f32) (mx : FVec Ideal S10000 .f32) : FVec Ideal S10000x64 .f32 :=
  subf z (broadcastTo S10000x64 (shapeCast S10000x1 mx shapeCasts_S10000_S10000x1) broadcasts_S10000x1_S10000x64)

/-- The shifted block minus the logarithm of a per-row quantity `sm`. -/
def tailOf (z : FVec Ideal S10000x64 .f32) (mx sm : FVec Ideal S10000 .f32) : FVec Ideal S10000x64 .f32 :=
  subf (shift z mx) (broadcastTo S10000x64 (log (shapeCast S10000x1 sm shapeCasts_S10000_S10000x1)) broadcasts_S10000x1_S10000x64)

/-- The row-wise log-softmax of a block, spelt as the body spells it. -/
def tail2 (z : FVec Ideal S10000x64 .f32) : FVec Ideal S10000x64 .f32 :=
  tailOf z (MX z) (SM (exp (shift z (MX z))))

theorem shift_apply (z : FVec Ideal S10000x64 .f32) (mx : FVec Ideal S10000 .f32) (p : Fin 10000) (q : Fin 64) :
    shift z mx (ix2 p q) = z (ix2 p q) - mx (ix1 p) := by
  unfold shift
  simp only [subf_apply, broadcastTo_a1_ab_apply, shapeCast_a_a1_apply]

theorem tailOf_apply (z : FVec Ideal S10000x64 .f32) (mx sm : FVec Ideal S10000 .f32) (p : Fin 10000) (q : Fin 64) :
    tailOf z mx sm (ix2 p q) = (z (ix2 p q) - mx (ix1 p)) - Ideal.log (sm (ix1 p)) := by
  unfold tailOf
  simp only [subf_apply, log_apply, broadcastTo_a1_ab_apply, shapeCast_a_a1_apply, shift_apply]

theorem k2_pay1_split (v0 v2 : Vec Ideal S10000x128 .f32) (v5 : Vec Ideal S128x128 .f32) (v7 : Vec Ideal S1x128 .f32)
    (v13 : Vec Ideal S128x64 .f32) (v15 : Vec Ideal S1x64 .f32) :
    k2_pay1 (F := Ideal) v0 v2 v5 v7 v13 v15 = tail2 (pre2 v0 v2 v5 v7 v13 v15) := rfl

/-- The pre-activations at row `p`, column `q`: the layer's second linear map. -/
theorem pre2_apply (v0 v2 : FVec Ideal S10000x128 .f32) (v5 : FVec Ideal S128x128 .f32) (v7 : FVec Ideal S1x128 .f32)
    (v13 : FVec Ideal S128x64 .f32) (v15 : FVec Ideal S1x64 .f32) (p : Fin 10000) (q : Fin 64) :
    pre2 v0 v2 v5 v7 v13 v15 (ix2 p q)
      = lin (fun i => v0 i + v2 i) v5 (fun k => v7 (ix2 (0 : Fin 1) k)) v13 (fun k => v15 (ix2 (0 : Fin 1) k)) p q := by
  unfold pre2
  simp only [shapeCast_self, addf_apply, maximumf_apply, mm128, mm64, broadcastTo_1b_ab_apply, broadcast_apply, scalar_zero]
  rfl

/-- The log-softmax tail at row `p`, column `q`. -/
theorem tail2_apply (z : FVec Ideal S10000x64 .f32) (p : Fin 10000) (q : Fin 64) :
    tail2 z (ix2 p q) = (z (ix2 p q) - rowMax fun q' => z (ix2 p q'))
      - Ideal.log (∑ q' : Fin 64, Ideal.exp (z (ix2 p q') - rowMax fun q'' => z (ix2 p q''))) := by
  unfold tail2
  rw [tailOf_apply, SM_apply, MX_apply]
  simp only [exp_apply, shift_apply, MX_apply]

/-- The last layer's body on a block: the row-wise log-softmax of the layer's second linear map. -/
theorem k2_pay1_eq (v0 v2 : FVec Ideal S10000x128 .f32) (v5 : FVec Ideal S128x128 .f32) (v7 : FVec Ideal S1x128 .f32)
    (v13 : FVec Ideal S128x64 .f32) (v15 : FVec Ideal S1x64 .f32) :
    k2_pay1 (F := Ideal) v0 v2 v5 v7 v13 v15
      = lsm (lin (fun i => v0 i + v2 i) v5 (fun k => v7 (ix2 (0 : Fin 1) k)) v13 (fun k => v15 (ix2 (0 : Fin 1) k))) := by
  funext i
  obtain ⟨p, q, rfl⟩ : ∃ (p : Fin 10000) (q : Fin 64), i = ix2 p q := ⟨i 0, i 1, eq_ix2 i⟩
  rw [k2_pay1_split, tail2_apply]
  simp only [pre2_apply]
  rfl

end Cert.KernelIdeal.Body

end
-- ==== Proof.KRegion.lean ====
/-
  From blocks to arrays: each of the three kernel launches tiles the 100000 rows of its row-blocked operands and of its
  output in ten blocks of 10000 rows, one per grid point, and reads the weights and biases whole at every point. What point
  `t` writes back is therefore block `t` of ONE function of the arrays as the launch finds them — the layer of the
  specification, which depends on a node's own row only — and since the ten blocks cover the output array, the array ends
  holding that function.
-/
import proofs.«153170_j87926570483778_2_alg».proof.Proof.Gen.KernelIdeal.Frame
import proofs.«153170_j87926570483778_2_alg».proof.Proof.KBody
import Idealize.ShloMosaic.Lib.Pipeline.Value

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx Idealize.SL.Sem Cert.GinSpec
open Idealize.ShloMosaic.Pipeline (Dat Cfg Window)

theorem hz : (![0, 0] : Fin 2 → Nat) = fun _ => 0 := funext fun a => by fin_cases a <;> rfl

/-- A block's row `p` of the first two layers is the array's row `r'` when the block's rows of the two row-blocked operands are
    the array's and the weights and biases are the array's whole. -/
theorem resid_block (ab0 ab1 : S10000x128.Idx → EReal) (W1b : S128x128.Idx → EReal) (b1b : S1x128.Idx → EReal)
    (W2b : S128x128.Idx → EReal) (b2b : S1x128.Idx → EReal)
    (a0 a1 : S100000x128.Idx → EReal) (W1 : S128x128.Idx → EReal) (b1 : S1x128.Idx → EReal) (W2 : S128x128.Idx → EReal) (b2 : S1x128.Idx → EReal)
    (r' : Fin 100000) (p : Fin 10000) (q : Fin 128)
    (h0 : ∀ l : Fin 128, ab0 (ix2 p l) = a0 (ix2 r' l)) (h1 : ∀ l : Fin 128, ab1 (ix2 p l) = a1 (ix2 r' l))
    (h2 : W1b = W1) (h3 : b1b = b1) (h4 : W2b = W2) (h5 : b2b = b2) :
    resid (lin (N := 10000) (fun i => ab0 i + ab1 i) W1b (fun k => b1b (ix2 (0 : Fin 1) k)) W2b (fun k => b2b (ix2 (0 : Fin 1) k))) ab1 (ix2 p q)
      = resid (lin (N := 100000) (fun i => a0 i + a1 i) W1 (fun k => b1 (ix2 (0 : Fin 1) k)) W2 (fun k => b2 (ix2 (0 : Fin 1) k))) a1 (ix2 r' q) := by
  subst h2 h3 h4 h5
  have hl : lin (N := 10000) (fun i => ab0 i + ab1 i) W1b (fun k => b1b (ix2 (0 : Fin 1) k)) W2b (fun k => b2b (ix2 (0 : Fin 1) k)) p q
      = lin (N := 100000) (fun i => a0 i + a1 i) W1b (fun k => b1b (ix2 (0 : Fin 1) k)) W2b (fun k => b2b (ix2 (0 : Fin 1) k)) r' q :=
    lin_congr_row _ _ _ _ (fun l => by show ab0 (ix2 p l) + ab1 (ix2 p l) = a0 (ix2 r' l) + a1 (ix2 r' l); rw [h0 l, h1 l]) q
  show max (lin (N := 10000) (fun i => ab0 i + ab1 i) W1b (fun k => b1b (ix2 (0 : Fin 1) k)) W2b (fun k => b2b (ix2 (0 : Fin 1) k)) p q) 0 + ab1 (ix2 p q)
    = max (lin (N := 100000) (fun i => a0 i + a1 i) W1b (fun k => b1b (ix2 (0 : Fin 1) k)) W2b (fun k => b2b (ix2 (0 : Fin 1) k)) r' q) 0 + a1 (ix2 r' q)
  rw [hl, h1 q]

/-- The same for the last layer: the log-softmax of a row depends on that row of the layer's output only. -/
theorem lsm_block (ab0 ab1 : S10000x128.Idx → EReal) (W1b : S128x128.Idx → EReal) (b1b : S1x128.Idx → EReal)
    (W2b : S128x64.Idx → EReal) (b2b : S1x64.Idx → EReal)
    (a0 a1 : S100000x128.Idx → EReal) (W1 : S128x128.Idx → EReal) (b1 : S1x128.Idx → EReal) (W2 : S128x64.Idx → EReal) (b2 : S1x64.Idx → EReal)
    (r' : Fin 100000) (p : Fin 10000) (q : Fin 64)
    (h0 : ∀ l : Fin 128, ab0 (ix2 p l) = a0 (ix2 r' l)) (h1 : ∀ l : Fin 128, ab1 (ix2 p l) = a1 (ix2 r' l))
    (h2 : W1b = W1) (h3 : b1b = b1) (h4 : W2b = W2) (h5 : b2b = b2) :
    lsm (lin (N := 10000) (fun i => ab0 i + ab1 i) W1b (fun k => b1b (ix2 (0 : Fin 1) k)) W2b (fun k => b2b (ix2 (0 : Fin 1) k))) (ix2 p q)
      = lsm (lin (N := 100000) (fun i => a0 i + a1 i) W1 (fun k => b1 (ix2 (0 : Fin 1) k)) W2 (fun k => b2 (ix2 (0 : Fin 1) k))) (ix2 r' q) := by
  subst h2 h3 h4 h5
  have hl : lin (N := 10000) (fun i => ab0 i + ab1 i) W1b (fun k => b1b (ix2 (0 : Fin 1) k)) W2b (fun k => b2b (ix2 (0 : Fin 1) k)) p
      = lin (N := 100000) (fun i => a0 i + a1 i) W1b (fun k => b1b (ix2 (0 : Fin 1) k)) W2b (fun k => b2b (ix2 (0 : Fin 1) k)) r' :=
    funext fun q' => lin_congr_row _ _ _ _ (fun l => by show ab0 (ix2 p l) + ab1 (ix2 p l) = a0 (ix2 r' l) + a1 (ix2 r' l); rw [h0 l, h1 l]) q'
  show (lin (N := 10000) (fun i => ab0 i + ab1 i) W1b (fun k => b1b (ix2 (0 : Fin 1) k)) W2b (fun k => b2b (ix2 (0 : Fin 1) k)) p q
        - rowMax (lin (N := 10000) (fun i => ab0 i + ab1 i) W1b (fun k => b1b (ix2 (0 : Fin 1) k)) W2b (fun k => b2b (ix2 (0 : Fin 1) k)) p))
      - Ideal.log (∑ q' : Fin 64, Ideal.exp (lin (N := 10000) (fun i => ab0 i + ab1 i) W1b (fun k => b1b (ix2 (0 : Fin 1) k)) W2b (fun k => b2b (ix2 (0 : Fin 1) k)) p q'
        - rowMax (lin (N := 10000) (fun i => ab0 i + ab1 i) W1b (fun k => b1b (ix2 (0 : Fin 1) k)) W2b (fun k => b2b (ix2 (0 : Fin 1) k)) p)))
    = (lin (N := 100000) (fun i => a0 i + a1 i) W1b (fun k => b1b (ix2 (0 : Fin 1) k)) W2b (fun k => b2b (ix2 (0 : Fin 1) k)) r' q
        - rowMax (lin (N := 100000) (fun i => a0 i + a1 i) W1b (fun k => b1b (ix2 (0 : Fin 1) k)) W2b (fun k => b2b (ix2 (0 : Fin 1) k)) r'))
      - Ideal.log (∑ q' : Fin 64, Ideal.exp (lin (N := 100000) (fun i => a0 i + a1 i) W1b (fun k => b1b (ix2 (0 : Fin 1) k)) W2b (fun k => b2b (ix2 (0 : Fin 1) k)) r' q'
        - rowMax (lin (N := 100000) (fun i => a0 i + a1 i) W1b (fun k => b1b (ix2 (0 : Fin 1) k)) W2b (fun k => b2b (ix2 (0 : Fin 1) k)) r')))
  rw [hl]

/-- The first two layers on whole arrays: aggregated features `a0 + a1`, residual input `a1`, biases as `1 × n` rows. -/
def GBN (a0 a1 : S100000x128.Idx → EReal) (W1 : S128x128.Idx → EReal) (b1 : S1x128.Idx → EReal) (W2 : S128x128.Idx → EReal)
    (b2 : S1x128.Idx → EReal) : S100000x128.Idx → EReal :=
  resid (lin (N := 100000) (fun i => a0 i + a1 i) W1 (fun k => b1 (ix2 (0 : Fin 1) k)) W2 (fun k => b2 (ix2 (0 : Fin 1) k))) a1

/-- The same on a block of 10000 rows. -/
def GBNb (a0 a1 : S10000x128.Idx → EReal) (W1 : S128x128.Idx → EReal) (b1 : S1x128.Idx → EReal) (W2 : S128x128.Idx → EReal)
    (b2 : S1x128.Idx → EReal) : S10000x128.Idx → EReal :=
  resid (lin (N := 10000) (fun i => a0 i + a1 i) W1 (fun k => b1 (ix2 (0 : Fin 1) k)) W2 (fun k => b2 (ix2 (0 : Fin 1) k))) a1

/-- The last layer on whole arrays. -/
def GLS (a0 a1 : S100000x128.Idx → EReal) (W1 : S128x128.Idx → EReal) (b1 : S1x128.Idx → EReal) (W2 : S128x64.Idx → EReal)
    (b2 : S1x64.Idx → EReal) : S100000x64.Idx → EReal :=
  lsm (lin (N := 100000) (fun i => a0 i + a1 i) W1 (fun k => b1 (ix2 (0 : Fin 1) k)) W2 (fun k => b2 (ix2 (0 : Fin 1) k)))

/-- The same on a block of 10000 rows. -/
def GLSb (a0 a1 : S10000x128.Idx → EReal) (W1 : S128x128.Idx → EReal) (b1 : S1x128.Idx → EReal) (W2 : S128x64.Idx → EReal)
    (b2 : S1x64.Idx → EReal) : S10000x64.Idx → EReal :=
  lsm (lin (N := 10000) (fun i => a0 i + a1 i) W1 (fun k => b1 (ix2 (0 : Fin 1) k)) W2 (fun k => b2 (ix2 (0 : Fin 1) k)))

theorem GBN_block (ab0 ab1 : S10000x128.Idx → EReal) (W1b : S128x128.Idx → EReal) (b1b : S1x128.Idx → EReal)
    (W2b : S128x128.Idx → EReal) (b2b : S1x128.Idx → EReal)
    (a0 a1 : S100000x128.Idx → EReal) (W1 : S128x128.Idx → EReal) (b1 : S1x128.Idx → EReal) (W2 : S128x128.Idx → EReal) (b2 : S1x128.Idx → EReal)
    (r' : Fin 100000) (p : Fin 10000) (q : Fin 128)
    (h0 : ∀ l : Fin 128, ab0 (ix2 p l) = a0 (ix2 r' l)) (h1 : ∀ l : Fin 128, ab1 (ix2 p l) = a1 (ix2 r' l))
    (h2 : W1b = W1) (h3 : b1b = b1) (h4 : W2b = W2) (h5 : b2b = b2) :
    GBNb ab0 ab1 W1b b1b W2b b2b (ix2 p q) = GBN a0 a1 W1 b1 W2 b2 (ix2 r' q) :=
  resid_block ab0 ab1 W1b b1b W2b b2b a0 a1 W1 b1 W2 b2 r' p q h0 h1 h2 h3 h4 h5

theorem GLS_block (ab0 ab1 : S10000x128.Idx → EReal) (W1b : S128x128.Idx → EReal) (b1b : S1x128.Idx → EReal)
    (W2b : S128x64.Idx → EReal) (b2b : S1x64.Idx → EReal)
    (a0 a1 : S100000x128.Idx → EReal) (W1 : S128x128.Idx → EReal) (b1 : S1x128.Idx → EReal) (W2 : S128x64.Idx → EReal) (b2 : S1x64.Idx → EReal)
    (r' : Fin 100000) (p : Fin 10000) (q : Fin 64)
    (h0 : ∀ l : Fin 128, ab0 (ix2 p l) = a0 (ix2 r' l)) (h1 : ∀ l : Fin 128, ab1 (ix2 p l) = a1 (ix2 r' l))
    (h2 : W1b = W1) (h3 : b1b = b1) (h4 : W2b = W2) (h5 : b2b = b2) :
    GLSb ab0 ab1 W1b b1b W2b b2b (ix2 p q) = GLS a0 a1 W1 b1 W2 b2 (ix2 r' q) :=
  lsm_block ab0 ab1 W1b b1b W2b b2b a0 a1 W1 b1 W2 b2 r' p q h0 h1 h2 h3 h4 h5

variable (V : (c : Dev nD) → (b : Ref sig .tc) → Buf (Elt Ideal) ((c : Thread nD τ).loc b))

/-! ## Launch 0 -/

/-- The index maps of launch 0, decided over its ten grid points: the two row-blocked inputs and the output move with the
    point, the weights and biases stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What launch 0's output array ends holding: the layer of the arrays as the launch finds them. -/
def G0 (c : Dev nD) : S100000x128.Idx → EReal :=
  GBN (V c main_v15) (V c main_arg0) (V c main_arg2) (V c main_v26) (V c main_v22) (V c main_v27)

/-- What point `t` writes back is block `t` of `G0`. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 (F := Ideal) V c).after 6 t) = _
  rw [after0_6]
  unfold out0_6
  rw [View.canon_unit_zero hz]
  simp only [View.ld_unit_zero (S := S10000x128) hz, View.ld_unit_zero (S := S128x128) hz, View.ld_unit_zero (S := S1x128) hz]
  rw [Body.k0_pay1_eq]
  obtain ⟨e00, e01, e10, e11, e20, e21, e30, e31, e40, e41, e50, e51, e60, e61⟩ := idx_facts0 t
  have hN : cfg0.N = 10 := N_0
  have ht : t.val < 10 := by have := t.isLt; omega
  funext j
  obtain ⟨p, q, rfl⟩ : ∃ (p : Fin 10000) (q : Fin 128), j = ix2 p q := ⟨j 0, j 1, eq_ix2 j⟩
  have hp := p.isLt
  have hq := q.isLt
  have eo : ((cfg0.win 6).blk t).view.emb (ix2 p q) = ix2 (⟨t.val * 10000 + p.val, by omega⟩ : Fin 100000) q := by
    funext a; apply Fin.ext
    match a with
    | ⟨0, _⟩ => show win0_6.index t (0 : Fin 2) * 10000 + 1 * p.val = t.val * 10000 + p.val; omega
    | ⟨1, _⟩ => show win0_6.index t (1 : Fin 2) * 128 + 1 * q.val = q.val; omega
  have h0 : ∀ l : Fin 128, iblk0 V c 0 t (ix2 p l) = V c main_v15 (ix2 (⟨t.val * 10000 + p.val, by omega⟩ : Fin 100000) l) := fun l => by
    show V c main_v15 (((cfg0.win 0).blk t).view.emb (ix2 p l)) = _
    refine congrArg (V c main_v15) (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * l.val = l.val; omega
  have h1 : ∀ l : Fin 128, iblk0 V c 1 t (ix2 p l) = V c main_arg0 (ix2 (⟨t.val * 10000 + p.val, by omega⟩ : Fin 100000) l) := fun l => by
    show V c main_arg0 (((cfg0.win 1).blk t).view.emb (ix2 p l)) = _
    refine congrArg (V c main_arg0) (funext fun a => Fin.ext ?_)
    match a with
    | ⟨0, _⟩ => show win0_1.index t (0 : Fin 2) * 10000 + 1 * p.val = t.val * 10000 + p.val; omega
    | ⟨1, _⟩ => show win0_1.index t (1 : Fin 2) * 128 + 1 * l.val = l.val; omega
  have h2 : iblk0 V c 2 t = V c main_arg2 := funext fun y => by
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have h3 : iblk0 V c 3 t = V c main_v26 := funext fun y => by
    show V c main_v26 (((cfg0.win 3).blk t).view.emb y) = V c main_v26 y
    refine congrArg (V c main_v26) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  have h4 : iblk0 V c 4 t = V c main_v22 := funext fun y => by
    show V c main_v22 (((cfg0.win 4).blk t).view.emb y) = V c main_v22 y
    refine congrArg (V c main_v22) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have h5 : iblk0 V c 5 t = V c main_v27 := funext fun y => by
    show V c main_v27 (((cfg0.win 5).blk t).view.emb y) = V c main_v27 y
    refine congrArg (V c main_v27) (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  show GBNb (iblk0 V c 0 t) (iblk0 V c 1 t) (iblk0 V c 2 t) (iblk0 V c 3 t) (iblk0 V c 4 t) (iblk0 V c 5 t) (ix2 p q) = G0 V c (((cfg0.win 6).blk t).view.emb (ix2 p q))
  rw [eo]
  exact GBN_block (iblk0 V c 0 t) (iblk0 V c 1 t) (iblk0 V c 2 t) (iblk0 V c 3 t) (iblk0 V c 4 t) (iblk0 V c 5 t)
    (V c main_v15) (V c main_arg0) (V c main_arg2) (V c main_v26) (V c main_v22) (V c main_v27) ⟨t.val * 10000 + p.val, by omega⟩ p q h0 h1 h2 h3 h4 h5

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v28).slice (win0_6.rect t)).set ↔ _
  rw [View.set_slice_whole, Rect.mem_set_unit]
  exact Iff.rfl

/-- Every row of the output array is in the block of the point `row / 10000`. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 10 := N_0
  obtain ⟨t, htv⟩ : ∃ t : Fin cfg0.N, t.val = (i 0).val / 10000 := ⟨⟨(i 0).val / 10000, by rw [hN]; omega⟩, rfl⟩
  obtain ⟨-, -, -, -, -, -, -, -, -, -, -, -, e60, e61⟩ := idx_facts0 t
  refine ⟨t, flush0_6 t, ?_⟩
  rw [mem_blk0]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- Launch 0's output array after the launch, as one function of the arrays it found. -/
theorem final0 (c : Dev nD) : (dat0 (F := Ideal) V c).arrAt 6 cfg0.N = G0 V c :=
  (dat0 (F := Ideal) V c).arrAt_eq_of_cover 6 (G0 V c) (fun t _ => flushed0_eq V c t) (cover0)

/-! ## Launch 1 -/

/-- The index maps of launch 1, decided over its ten grid points: the two row-blocked inputs and the output move with the
    point, the weights and biases stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What launch 1's output array ends holding: the layer of the arrays as the launch finds them. -/
def G1 (c : Dev nD) : S100000x128.Idx → EReal :=
  GBN (V c main_v40) (V c main_v28) (V c main_arg6) (V c main_v51) (V c main_v47) (V c main_v52)

/-- What point `t` writes back is block `t` of `G1`. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  unfold out1_6
  rw [View.canon_unit_zero hz]
  simp only [View.ld_unit_zero (S := S10000x128) hz, View.ld_unit_zero (S := S128x128) hz, View.ld_unit_zero (S := S1x128) hz]
  rw [Body.k1_pay1_eq]
  obtain ⟨e00, e01, e10, e11, e20, e21, e30, e31, e40, e41, e50, e51, e60, e61⟩ := idx_facts1 t
  have hN : cfg1.N = 10 := N_1
  have ht : t.val < 10 := by have := t.isLt; omega
  funext j
  obtain ⟨p, q, rfl⟩ : ∃ (p : Fin 10000) (q : Fin 128), j = ix2 p q := ⟨j 0, j 1, eq_ix2 j⟩
  have hp := p.isLt
  have hq := q.isLt
  have eo : ((cfg1.win 6).blk t).view.emb (ix2 p q) = ix2 (⟨t.val * 10000 + p.val, by omega⟩ : Fin 100000) q := by
    funext a; apply Fin.ext
    match a with
    | ⟨0, _⟩ => show win1_6.index t (0 : Fin 2) * 10000 + 1 * p.val = t.val * 10000 + p.val; omega
    | ⟨1, _⟩ => show win1_6.index t (1 : Fin 2) * 128 + 1 * q.val = q.val; omega
  have h0 : ∀ l : Fin 128, iblk1 V c 0 t (ix2 p l) = V c main_v40 (ix2 (⟨t.val * 10000 + p.val, by omega⟩ : Fin 100000) l) := fun l => by
    show V c main_v40 (((cfg1.win 0).blk t).view.emb (ix2 p l)) = _
    refine congrArg (V c main_v40) (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * l.val = l.val; omega
  have h1 : ∀ l : Fin 128, iblk1 V c 1 t (ix2 p l) = V c main_v28 (ix2 (⟨t.val * 10000 + p.val, by omega⟩ : Fin 100000) l) := fun l => by
    show V c main_v28 (((cfg1.win 1).blk t).view.emb (ix2 p l)) = _
    refine congrArg (V c main_v28) (funext fun a => Fin.ext ?_)
    match a with
    | ⟨0, _⟩ => show win1_1.index t (0 : Fin 2) * 10000 + 1 * p.val = t.val * 10000 + p.val; omega
    | ⟨1, _⟩ => show win1_1.index t (1 : Fin 2) * 128 + 1 * l.val = l.val; omega
  have h2 : iblk1 V c 2 t = V c main_arg6 := funext fun y => by
    show V c main_arg6 (((cfg1.win 2).blk t).view.emb y) = V c main_arg6 y
    refine congrArg (V c main_arg6) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have h3 : iblk1 V c 3 t = V c main_v51 := funext fun y => by
    show V c main_v51 (((cfg1.win 3).blk t).view.emb y) = V c main_v51 y
    refine congrArg (V c main_v51) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have h4 : iblk1 V c 4 t = V c main_v47 := funext fun y => by
    show V c main_v47 (((cfg1.win 4).blk t).view.emb y) = V c main_v47 y
    refine congrArg (V c main_v47) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have h5 : iblk1 V c 5 t = V c main_v52 := funext fun y => by
    show V c main_v52 (((cfg1.win 5).blk t).view.emb y) = V c main_v52 y
    refine congrArg (V c main_v52) (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  show GBNb (iblk1 V c 0 t) (iblk1 V c 1 t) (iblk1 V c 2 t) (iblk1 V c 3 t) (iblk1 V c 4 t) (iblk1 V c 5 t) (ix2 p q) = G1 V c (((cfg1.win 6).blk t).view.emb (ix2 p q))
  rw [eo]
  exact GBN_block (iblk1 V c 0 t) (iblk1 V c 1 t) (iblk1 V c 2 t) (iblk1 V c 3 t) (iblk1 V c 4 t) (iblk1 V c 5 t)
    (V c main_v40) (V c main_v28) (V c main_arg6) (V c main_v51) (V c main_v47) (V c main_v52) ⟨t.val * 10000 + p.val, by omega⟩ p q h0 h1 h2 h3 h4 h5

/-- An index of the output array is in point `t`'s block iff each coordinate is in the block's range on its axis. -/
theorem mem_blk1 (t : Fin cfg1.N) (i : S100000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v53).slice (win1_6.rect t)).set ↔ _
  rw [View.set_slice_whole, Rect.mem_set_unit]
  exact Iff.rfl

/-- Every row of the output array is in the block of the point `row / 10000`. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 10 := N_1
  obtain ⟨t, htv⟩ : ∃ t : Fin cfg1.N, t.val = (i 0).val / 10000 := ⟨⟨(i 0).val / 10000, by rw [hN]; omega⟩, rfl⟩
  obtain ⟨-, -, -, -, -, -, -, -, -, -, -, -, e60, e61⟩ := idx_facts1 t
  refine ⟨t, flush1_6 t, ?_⟩
  rw [mem_blk1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- Launch 1's output array after the launch, as one function of the arrays it found. -/
theorem final1 (c : Dev nD) : (dat1 (F := Ideal) V c).arrAt 6 cfg1.N = G1 V c :=
  (dat1 (F := Ideal) V c).arrAt_eq_of_cover 6 (G1 V c) (fun t _ => flushed1_eq V c t) (cover1)

/-! ## Launch 2 -/

/-- The index maps of launch 2, decided over its ten grid points: the two row-blocked inputs and the output move with the
    point, the weights and biases stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What launch 2's output array ends holding: the layer of the arrays as the launch finds them. -/
def G2 (c : Dev nD) : S100000x64.Idx → EReal :=
  GLS (V c main_v65) (V c main_v53) (V c main_arg10) (V c main_v66) (V c main_arg12) (V c main_v67)

/-- What point `t` writes back is block `t` of `G2`. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero hz]
  simp only [View.ld_unit_zero (S := S10000x128) hz, View.ld_unit_zero (S := S128x128) hz, View.ld_unit_zero (S := S1x128) hz, View.ld_unit_zero (S := S128x64) hz, View.ld_unit_zero (S := S1x64) hz]
  rw [Body.k2_pay1_eq]
  obtain ⟨e00, e01, e10, e11, e20, e21, e30, e31, e40, e41, e50, e51, e60, e61⟩ := idx_facts2 t
  have hN : cfg2.N = 10 := N_2
  have ht : t.val < 10 := by have := t.isLt; omega
  funext j
  obtain ⟨p, q, rfl⟩ : ∃ (p : Fin 10000) (q : Fin 64), j = ix2 p q := ⟨j 0, j 1, eq_ix2 j⟩
  have hp := p.isLt
  have hq := q.isLt
  have eo : ((cfg2.win 6).blk t).view.emb (ix2 p q) = ix2 (⟨t.val * 10000 + p.val, by omega⟩ : Fin 100000) q := by
    funext a; apply Fin.ext
    match a with
    | ⟨0, _⟩ => show win2_6.index t (0 : Fin 2) * 10000 + 1 * p.val = t.val * 10000 + p.val; omega
    | ⟨1, _⟩ => show win2_6.index t (1 : Fin 2) * 64 + 1 * q.val = q.val; omega
  have h0 : ∀ l : Fin 128, iblk2 V c 0 t (ix2 p l) = V c main_v65 (ix2 (⟨t.val * 10000 + p.val, by omega⟩ : Fin 100000) l) := fun l => by
    show V c main_v65 (((cfg2.win 0).blk t).view.emb (ix2 p l)) = _
    refine congrArg (V c main_v65) (funext fun a => Fin.ext ?_)
    match a with
    | ⟨0, _⟩ => show win2_0.index t (0 : Fin 2) * 10000 + 1 * p.val = t.val * 10000 + p.val; omega
    | ⟨1, _⟩ => show win2_0.index t (1 : Fin 2) * 128 + 1 * l.val = l.val; omega
  have h1 : ∀ l : Fin 128, iblk2 V c 1 t (ix2 p l) = V c main_v53 (ix2 (⟨t.val * 10000 + p.val, by omega⟩ : Fin 100000) l) := fun l => by
    show V c main_v53 (((cfg2.win 1).blk t).view.emb (ix2 p l)) = _
    refine congrArg (V c main_v53) (funext fun a => Fin.ext ?_)
    match a with
    | ⟨0, _⟩ => show win2_1.index t (0 : Fin 2) * 10000 + 1 * p.val = t.val * 10000 + p.val; omega
    | ⟨1, _⟩ => show win2_1.index t (1 : Fin 2) * 128 + 1 * l.val = l.val; omega
  have h2 : iblk2 V c 2 t = V c main_arg10 := funext fun y => by
    show V c main_arg10 (((cfg2.win 2).blk t).view.emb y) = V c main_arg10 y
    refine congrArg (V c main_arg10) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have h3 : iblk2 V c 3 t = V c main_v66 := funext fun y => by
    show V c main_v66 (((cfg2.win 3).blk t).view.emb y) = V c main_v66 y
    refine congrArg (V c main_v66) (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  have h4 : iblk2 V c 4 t = V c main_arg12 := funext fun y => by
    show V c main_arg12 (((cfg2.win 4).blk t).view.emb y) = V c main_arg12 y
    refine congrArg (V c main_arg12) (funext fun a => Fin.ext ?_)
    match a with
    | ⟨0, _⟩ => show win2_4.index t (0 : Fin 2) * 128 + 1 * (y 0).val = (y 0).val; omega
    | ⟨1, _⟩ => show win2_4.index t (1 : Fin 2) * 64 + 1 * (y 1).val = (y 1).val; omega
  have h5 : iblk2 V c 5 t = V c main_v67 := funext fun y => by
    show V c main_v67 (((cfg2.win 5).blk t).view.emb y) = V c main_v67 y
    refine congrArg (V c main_v67) (funext fun a => Fin.ext ?_)
    match a with
    | ⟨0, _⟩ => show win2_5.index t (0 : Fin 2) * 1 + 1 * (y 0).val = (y 0).val; omega
    | ⟨1, _⟩ => show win2_5.index t (1 : Fin 2) * 64 + 1 * (y 1).val = (y 1).val; omega
  show GLSb (iblk2 V c 0 t) (iblk2 V c 1 t) (iblk2 V c 2 t) (iblk2 V c 3 t) (iblk2 V c 4 t) (iblk2 V c 5 t) (ix2 p q) = G2 V c (((cfg2.win 6).blk t).view.emb (ix2 p q))
  rw [eo]
  exact GLS_block (iblk2 V c 0 t) (iblk2 V c 1 t) (iblk2 V c 2 t) (iblk2 V c 3 t) (iblk2 V c 4 t) (iblk2 V c 5 t)
    (V c main_v65) (V c main_v53) (V c main_arg10) (V c main_v66) (V c main_arg12) (V c main_v67) ⟨t.val * 10000 + p.val, by omega⟩ p q h0 h1 h2 h3 h4 h5

/-- An index of the output array is in point `t`'s block iff each coordinate is in the block's range on its axis. -/
theorem mem_blk2 (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v68).slice (win2_6.rect t)).set ↔ _
  rw [View.set_slice_whole, Rect.mem_set_unit]
  exact Iff.rfl

/-- Every row of the output array is in the block of the point `row / 10000`. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 10 := N_2
  obtain ⟨t, htv⟩ : ∃ t : Fin cfg2.N, t.val = (i 0).val / 10000 := ⟨⟨(i 0).val / 10000, by rw [hN]; omega⟩, rfl⟩
  obtain ⟨-, -, -, -, -, -, -, -, -, -, -, -, e60, e61⟩ := idx_facts2 t
  refine ⟨t, flush2_6 t, ?_⟩
  rw [mem_blk2]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 64 ≤ (i 1).val ∧ (i 1).val < win2_6.index t (1 : Fin 2) * 64 + 64; omega

/-- Launch 2's output array after the launch, as one function of the arrays it found. -/
theorem final2 (c : Dev nD) : (dat2 (F := Ideal) V c).arrAt 6 cfg2.N = G2 V c :=
  (dat2 (F := Ideal) V c).arrAt_eq_of_cover 6 (G2 V c) (fun t _ => flushed2_eq V c t) (cover2)

end Cert.KernelIdeal.Region

end
-- ==== Proof.KHost.lean ====
/-
  The host operations around the three kernel launches, read as functions of the buffers they find: the neighbour
  aggregation (a gather of rows at the source nodes, accumulated by a scatter-add at the destination nodes; the change of
  float format around the gather is the identity on the extended reals), the normalisation folded into the second weight
  matrix and bias of the first two layers, and the biases laid out as rows. Walking the run's boundaries back to the launch
  memory then gives the kernel program's result as one function of its arguments.
-/
import proofs.«153170_j87926570483778_2_alg».proof.Proof.Gen.KernelIdeal.Frame
import proofs.«153170_j87926570483778_2_alg».proof.Proof.KRegion
import Idealize.ShloMosaic.Lib.StableHlo.Run

set_option maxRecDepth 16384

noncomputable section

namespace Cert.KernelIdeal.Host

open Cert.KernelIdeal Cert.KernelIdeal.Gen Cert.KernelIdeal.Region Idealize.ShloMosaic Idealize.ShloMosaic.TcCoe Idealize.ShloMosaic.Tactic
open Idealize.SL.Sem Idealize.ShloMosaic.StableHlo Idealize.ShloMosaic.ValueIdx Cert.GinSpec

/-! ## The host operators -/

/-- The source nodes of the edges: row 0 of the edge index. -/
def srcOf (e : IVec S2x1600000 32) : IVec S1600000 32 :=
  shapeCast S1600000 (extractStridedSlice S1x1600000 ![0, 0] e slices_S2x1600000_S1x1600000_0_0) shapeCasts_S1x1600000_S1600000

/-- The destination nodes of the edges: row 1 of the edge index. -/
def dstOf (e : IVec S2x1600000 32) : IVec S1600000 32 :=
  shapeCast S1600000 (extractStridedSlice S1x1600000 ![1, 0] e slices_S2x1600000_S1x1600000_1_0) shapeCasts_S1x1600000_S1600000

/-- The sum over incoming edges: the rows of `X` at the source nodes (a negative index counted from the end), accumulated
    at the destination nodes into zeros. -/
def aggOf (X : FVec Ideal S100000x128 .f32) (v1 v3 : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 v3)
    (extf .f32
      (Host.gather gather_S100000x128_S1600000x1_S1600000x128_1_0_n_n_0_1_1128 (truncf .bf16 X bitsLt_bf16_f32)
        (broadcastInDim S1600000x1 ![0] bcast_S1600000_S1600000x1_0
          (select (cmpi .slt v1 (broadcastInDim S1600000 ![] bcast_S_S1600000 (constantI S_ 32 0#32)))
            (addi v1 (broadcastInDim S1600000 ![] bcast_S_S1600000 (constantI S_ 32 100000#32))) v1)))
      bitsLt_bf16_f32)

/-- The per-column scale `g · rsqrt (v + ε)` of the normalisation. -/
def scaleOf (g v : FVec Ideal S128 .f32) : FVec Ideal S128 .f32 :=
  mulf g (Host.rsqrt (addf v (broadcastInDim S128 ![] bcast_S_S128 (constant S_ .f32 0x3727C5AC#32))))

/-- The second weight matrix with each column scaled. -/
def w2f (W2 : FVec Ideal S128x128 .f32) (g v : FVec Ideal S128 .f32) : FVec Ideal S128x128 .f32 :=
  mulf W2 (broadcastInDim S128x128 ![0, 1] bcast_S1x128_S128x128_0_1 (broadcastInDim S1x128 ![1] bcast_S128_S1x128_1 (scaleOf g v)))

/-- The folded bias `(b2 - m) · scale + be`, as a row. -/
def b2fr (b2 mu g v be : FVec Ideal S128 .f32) : FVec Ideal S1x128 .f32 :=
  shapeCast S1x128 (addf (mulf (subf b2 mu) (scaleOf g v)) be) shapeCasts_S128_S1x128

/-- A length-128 vector as a row. -/
def row128 (b : FVec Ideal S128 .f32) : FVec Ideal S1x128 .f32 := shapeCast S1x128 b shapeCasts_S128_S1x128

/-- A length-64 vector as a row. -/
def row64 (b : FVec Ideal S64 .f32) : FVec Ideal S1x64 .f32 := shapeCast S1x64 b shapeCasts_S64_S1x64

/-! ## Each stretch of host operations, from any contents `Wv` -/

section Stretches

variable (Wv : Valuation τ sig (Elt Ideal))

theorem h0_main_v15 : (StableHlo.after (hostOps0 (F := Ideal)) Wv (Proc.devRef .tc main_v15) : FVec Ideal S100000x128 .f32) = aggOf (Wv (Proc.devRef .tc main_arg0)) (srcOf (Wv (Proc.devRef .tc main_arg1))) (dstOf (Wv (Proc.devRef .tc main_arg1))) := by
  after_results_simp <;> rfl
theorem h0_main_v1 : (StableHlo.after (hostOps0 (F := Ideal)) Wv (Proc.devRef .tc main_v1) : IVec S1600000 32) = srcOf (Wv (Proc.devRef .tc main_arg1)) := by
  after_results_simp <;> rfl
theorem h0_main_v3 : (StableHlo.after (hostOps0 (F := Ideal)) Wv (Proc.devRef .tc main_v3) : IVec S1600000 32) = dstOf (Wv (Proc.devRef .tc main_arg1)) := by
  after_results_simp <;> rfl
theorem h0_main_v26 : (StableHlo.after (hostOps0 (F := Ideal)) Wv (Proc.devRef .tc main_v26) : FVec Ideal S1x128 .f32) = row128 (Wv (Proc.devRef .tc main_arg3)) := by
  after_results_simp <;> rfl
theorem h0_main_v22 : (StableHlo.after (hostOps0 (F := Ideal)) Wv (Proc.devRef .tc main_v22) : FVec Ideal S128x128 .f32) = w2f (Wv (Proc.devRef .tc main_arg4)) (Wv (Proc.devRef .tc main_arg14)) (Wv (Proc.devRef .tc main_arg17)) := by
  after_results_simp <;> rfl
theorem h0_main_v27 : (StableHlo.after (hostOps0 (F := Ideal)) Wv (Proc.devRef .tc main_v27) : FVec Ideal S1x128 .f32) = b2fr (Wv (Proc.devRef .tc main_arg5)) (Wv (Proc.devRef .tc main_arg16)) (Wv (Proc.devRef .tc main_arg14)) (Wv (Proc.devRef .tc main_arg17)) (Wv (Proc.devRef .tc main_arg15)) := by
  after_results_simp <;> rfl
theorem h0_main_arg0 : StableHlo.after (hostOps0 (F := Ideal)) Wv (Proc.devRef .tc main_arg0) = Wv (Proc.devRef .tc main_arg0) := by
  after_results_simp <;> rfl
theorem h0_main_arg2 : StableHlo.after (hostOps0 (F := Ideal)) Wv (Proc.devRef .tc main_arg2) = Wv (Proc.devRef .tc main_arg2) := by
  after_results_simp <;> rfl
theorem h0_main_arg6 : StableHlo.after (hostOps0 (F := Ideal)) Wv (Proc.devRef .tc main_arg6) = Wv (Proc.devRef .tc main_arg6) := by
  after_results_simp <;> rfl
theorem h0_main_arg7 : StableHlo.after (hostOps0 (F := Ideal)) Wv (Proc.devRef .tc main_arg7) = Wv (Proc.devRef .tc main_arg7) := by
  after_results_simp <;> rfl
theorem h0_main_arg8 : StableHlo.after (hostOps0 (F := Ideal)) Wv (Proc.devRef .tc main_arg8) = Wv (Proc.devRef .tc main_arg8) := by
  after_results_simp <;> rfl
theorem h0_main_arg9 : StableHlo.after (hostOps0 (F := Ideal)) Wv (Proc.devRef .tc main_arg9) = Wv (Proc.devRef .tc main_arg9) := by
  after_results_simp <;> rfl
theorem h0_main_arg10 : StableHlo.after (hostOps0 (F := Ideal)) Wv (Proc.devRef .tc main_arg10) = Wv (Proc.devRef .tc main_arg10) := by
  after_results_simp <;> rfl
theorem h0_main_arg11 : StableHlo.after (hostOps0 (F := Ideal)) Wv (Proc.devRef .tc main_arg11) = Wv (Proc.devRef .tc main_arg11) := by
  after_results_simp <;> rfl
theorem h0_main_arg12 : StableHlo.after (hostOps0 (F := Ideal)) Wv (Proc.devRef .tc main_arg12) = Wv (Proc.devRef .tc main_arg12) := by
  after_results_simp <;> rfl
theorem h0_main_arg13 : StableHlo.after (hostOps0 (F := Ideal)) Wv (Proc.devRef .tc main_arg13) = Wv (Proc.devRef .tc main_arg13) := by
  after_results_simp <;> rfl
theorem h0_main_arg18 : StableHlo.after (hostOps0 (F := Ideal)) Wv (Proc.devRef .tc main_arg18) = Wv (Proc.devRef .tc main_arg18) := by
  after_results_simp <;> rfl
theorem h0_main_arg19 : StableHlo.after (hostOps0 (F := Ideal)) Wv (Proc.devRef .tc main_arg19) = Wv (Proc.devRef .tc main_arg19) := by
  after_results_simp <;> rfl
theorem h0_main_arg20 : StableHlo.after (hostOps0 (F := Ideal)) Wv (Proc.devRef .tc main_arg20) = Wv (Proc.devRef .tc main_arg20) := by
  after_results_simp <;> rfl
theorem h0_main_arg21 : StableHlo.after (hostOps0 (F := Ideal)) Wv (Proc.devRef .tc main_arg21) = Wv (Proc.devRef .tc main_arg21) := by
  after_results_simp <;> rfl
theorem h1_main_v40 : (StableHlo.after (hostOps1 (F := Ideal)) Wv (Proc.devRef .tc main_v40) : FVec Ideal S100000x128 .f32) = aggOf (Wv (Proc.devRef .tc main_v28)) (Wv (Proc.devRef .tc main_v1)) (Wv (Proc.devRef .tc main_v3)) := by
  after_results_simp <;> rfl
theorem h1_main_v51 : (StableHlo.after (hostOps1 (F := Ideal)) Wv (Proc.devRef .tc main_v51) : FVec Ideal S1x128 .f32) = row128 (Wv (Proc.devRef .tc main_arg7)) := by
  after_results_simp <;> rfl
theorem h1_main_v47 : (StableHlo.after (hostOps1 (F := Ideal)) Wv (Proc.devRef .tc main_v47) : FVec Ideal S128x128 .f32) = w2f (Wv (Proc.devRef .tc main_arg8)) (Wv (Proc.devRef .tc main_arg18)) (Wv (Proc.devRef .tc main_arg21)) := by
  after_results_simp <;> rfl
theorem h1_main_v52 : (StableHlo.after (hostOps1 (F := Ideal)) Wv (Proc.devRef .tc main_v52) : FVec Ideal S1x128 .f32) = b2fr (Wv (Proc.devRef .tc main_arg9)) (Wv (Proc.devRef .tc main_arg20)) (Wv (Proc.devRef .tc main_arg18)) (Wv (Proc.devRef .tc main_arg21)) (Wv (Proc.devRef .tc main_arg19)) := by
  after_results_simp <;> rfl
theorem h1_main_v28 : StableHlo.after (hostOps1 (F := Ideal)) Wv (Proc.devRef .tc main_v28) = Wv (Proc.devRef .tc main_v28) := by
  after_results_simp <;> rfl
theorem h1_main_v1 : StableHlo.after (hostOps1 (F := Ideal)) Wv (Proc.devRef .tc main_v1) = Wv (Proc.devRef .tc main_v1) := by
  after_results_simp <;> rfl
theorem h1_main_v3 : StableHlo.after (hostOps1 (F := Ideal)) Wv (Proc.devRef .tc main_v3) = Wv (Proc.devRef .tc main_v3) := by
  after_results_simp <;> rfl
theorem h1_main_arg6 : StableHlo.after (hostOps1 (F := Ideal)) Wv (Proc.devRef .tc main_arg6) = Wv (Proc.devRef .tc main_arg6) := by
  after_results_simp <;> rfl
theorem h1_main_arg10 : StableHlo.after (hostOps1 (F := Ideal)) Wv (Proc.devRef .tc main_arg10) = Wv (Proc.devRef .tc main_arg10) := by
  after_results_simp <;> rfl
theorem h1_main_arg11 : StableHlo.after (hostOps1 (F := Ideal)) Wv (Proc.devRef .tc main_arg11) = Wv (Proc.devRef .tc main_arg11) := by
  after_results_simp <;> rfl
theorem h1_main_arg12 : StableHlo.after (hostOps1 (F := Ideal)) Wv (Proc.devRef .tc main_arg12) = Wv (Proc.devRef .tc main_arg12) := by
  after_results_simp <;> rfl
theorem h1_main_arg13 : StableHlo.after (hostOps1 (F := Ideal)) Wv (Proc.devRef .tc main_arg13) = Wv (Proc.devRef .tc main_arg13) := by
  after_results_simp <;> rfl
theorem h2_main_v65 : (StableHlo.after (hostOps2 (F := Ideal)) Wv (Proc.devRef .tc main_v65) : FVec Ideal S100000x128 .f32) = aggOf (Wv (Proc.devRef .tc main_v53)) (Wv (Proc.devRef .tc main_v1)) (Wv (Proc.devRef .tc main_v3)) := by
  after_results_simp <;> rfl
theorem h2_main_v66 : (StableHlo.after (hostOps2 (F := Ideal)) Wv (Proc.devRef .tc main_v66) : FVec Ideal S1x128 .f32) = row128 (Wv (Proc.devRef .tc main_arg11)) := by
  after_results_simp <;> rfl
theorem h2_main_v67 : (StableHlo.after (hostOps2 (F := Ideal)) Wv (Proc.devRef .tc main_v67) : FVec Ideal S1x64 .f32) = row64 (Wv (Proc.devRef .tc main_arg13)) := by
  after_results_simp <;> rfl
theorem h2_main_v53 : StableHlo.after (hostOps2 (F := Ideal)) Wv (Proc.devRef .tc main_v53) = Wv (Proc.devRef .tc main_v53) := by
  after_results_simp <;> rfl
theorem h2_main_arg10 : StableHlo.after (hostOps2 (F := Ideal)) Wv (Proc.devRef .tc main_arg10) = Wv (Proc.devRef .tc main_arg10) := by
  after_results_simp <;> rfl
theorem h2_main_arg12 : StableHlo.after (hostOps2 (F := Ideal)) Wv (Proc.devRef .tc main_arg12) = Wv (Proc.devRef .tc main_arg12) := by
  after_results_simp <;> rfl

end Stretches

/-! ## The boundaries of the run, read back to the launch memory -/

section Walk

variable (m : (ℓ : Loc nD τ sig) → Buf (Elt Ideal) ℓ) (ρ : Dev nD → PrngReg) (c : Dev nD)

/-- The first layer's output as a function of the arguments. -/
def X1 : FVec Ideal S100000x128 .f32 :=
  GBN (aggOf (m ((c : Thread nD τ).loc main_arg0)) (srcOf (m ((c : Thread nD τ).loc main_arg1))) (dstOf (m ((c : Thread nD τ).loc main_arg1)))) (m ((c : Thread nD τ).loc main_arg0)) (m ((c : Thread nD τ).loc main_arg2)) (row128 (m ((c : Thread nD τ).loc main_arg3)))
    (w2f (m ((c : Thread nD τ).loc main_arg4)) (m ((c : Thread nD τ).loc main_arg14)) (m ((c : Thread nD τ).loc main_arg17))) (b2fr (m ((c : Thread nD τ).loc main_arg5)) (m ((c : Thread nD τ).loc main_arg16)) (m ((c : Thread nD τ).loc main_arg14)) (m ((c : Thread nD τ).loc main_arg17)) (m ((c : Thread nD τ).loc main_arg15)))

/-- The second layer's output. -/
def X2 : FVec Ideal S100000x128 .f32 :=
  GBN (aggOf (X1 m c) (srcOf (m ((c : Thread nD τ).loc main_arg1))) (dstOf (m ((c : Thread nD τ).loc main_arg1)))) (X1 m c) (m ((c : Thread nD τ).loc main_arg6)) (row128 (m ((c : Thread nD τ).loc main_arg7)))
    (w2f (m ((c : Thread nD τ).loc main_arg8)) (m ((c : Thread nD τ).loc main_arg18)) (m ((c : Thread nD τ).loc main_arg21))) (b2fr (m ((c : Thread nD τ).loc main_arg9)) (m ((c : Thread nD τ).loc main_arg20)) (m ((c : Thread nD τ).loc main_arg18)) (m ((c : Thread nD τ).loc main_arg21)) (m ((c : Thread nD τ).loc main_arg19)))

/-- The last layer's output: the program's result. -/
def OUT : FVec Ideal S100000x64 .f32 :=
  GLS (aggOf (X2 m c) (srcOf (m ((c : Thread nD τ).loc main_arg1))) (dstOf (m ((c : Thread nD τ).loc main_arg1)))) (X2 m c) (m ((c : Thread nD τ).loc main_arg10)) (row128 (m ((c : Thread nD τ).loc main_arg11))) (m ((c : Thread nD τ).loc main_arg12)) (row64 (m ((c : Thread nD τ).loc main_arg13)))

theorem w1_main_v15 : (W1 m ρ c (Proc.devRef .tc main_v15) : FVec Ideal S100000x128 .f32) = aggOf (m ((c : Thread nD τ).loc main_arg0)) (srcOf (m ((c : Thread nD τ).loc main_arg1))) (dstOf (m ((c : Thread nD τ).loc main_arg1))) := h0_main_v15 (W0 m ρ c)
theorem w1_main_v1 : (W1 m ρ c (Proc.devRef .tc main_v1) : IVec S1600000 32) = srcOf (m ((c : Thread nD τ).loc main_arg1)) := h0_main_v1 (W0 m ρ c)
theorem w1_main_v3 : (W1 m ρ c (Proc.devRef .tc main_v3) : IVec S1600000 32) = dstOf (m ((c : Thread nD τ).loc main_arg1)) := h0_main_v3 (W0 m ρ c)
theorem w1_main_v26 : (W1 m ρ c (Proc.devRef .tc main_v26) : FVec Ideal S1x128 .f32) = row128 (m ((c : Thread nD τ).loc main_arg3)) := h0_main_v26 (W0 m ρ c)
theorem w1_main_v22 : (W1 m ρ c (Proc.devRef .tc main_v22) : FVec Ideal S128x128 .f32) = w2f (m ((c : Thread nD τ).loc main_arg4)) (m ((c : Thread nD τ).loc main_arg14)) (m ((c : Thread nD τ).loc main_arg17)) := h0_main_v22 (W0 m ρ c)
theorem w1_main_v27 : (W1 m ρ c (Proc.devRef .tc main_v27) : FVec Ideal S1x128 .f32) = b2fr (m ((c : Thread nD τ).loc main_arg5)) (m ((c : Thread nD τ).loc main_arg16)) (m ((c : Thread nD τ).loc main_arg14)) (m ((c : Thread nD τ).loc main_arg17)) (m ((c : Thread nD τ).loc main_arg15)) := h0_main_v27 (W0 m ρ c)
theorem w1_main_arg0 : W1 m ρ c (Proc.devRef .tc main_arg0) = (m ((c : Thread nD τ).loc main_arg0)) := h0_main_arg0 (W0 m ρ c)
theorem w1_main_arg2 : W1 m ρ c (Proc.devRef .tc main_arg2) = (m ((c : Thread nD τ).loc main_arg2)) := h0_main_arg2 (W0 m ρ c)
theorem w1_main_arg6 : W1 m ρ c (Proc.devRef .tc main_arg6) = (m ((c : Thread nD τ).loc main_arg6)) := h0_main_arg6 (W0 m ρ c)
theorem w1_main_arg7 : W1 m ρ c (Proc.devRef .tc main_arg7) = (m ((c : Thread nD τ).loc main_arg7)) := h0_main_arg7 (W0 m ρ c)
theorem w1_main_arg8 : W1 m ρ c (Proc.devRef .tc main_arg8) = (m ((c : Thread nD τ).loc main_arg8)) := h0_main_arg8 (W0 m ρ c)
theorem w1_main_arg9 : W1 m ρ c (Proc.devRef .tc main_arg9) = (m ((c : Thread nD τ).loc main_arg9)) := h0_main_arg9 (W0 m ρ c)
theorem w1_main_arg10 : W1 m ρ c (Proc.devRef .tc main_arg10) = (m ((c : Thread nD τ).loc main_arg10)) := h0_main_arg10 (W0 m ρ c)
theorem w1_main_arg11 : W1 m ρ c (Proc.devRef .tc main_arg11) = (m ((c : Thread nD τ).loc main_arg11)) := h0_main_arg11 (W0 m ρ c)
theorem w1_main_arg12 : W1 m ρ c (Proc.devRef .tc main_arg12) = (m ((c : Thread nD τ).loc main_arg12)) := h0_main_arg12 (W0 m ρ c)
theorem w1_main_arg13 : W1 m ρ c (Proc.devRef .tc main_arg13) = (m ((c : Thread nD τ).loc main_arg13)) := h0_main_arg13 (W0 m ρ c)
theorem w1_main_arg18 : W1 m ρ c (Proc.devRef .tc main_arg18) = (m ((c : Thread nD τ).loc main_arg18)) := h0_main_arg18 (W0 m ρ c)
theorem w1_main_arg19 : W1 m ρ c (Proc.devRef .tc main_arg19) = (m ((c : Thread nD τ).loc main_arg19)) := h0_main_arg19 (W0 m ρ c)
theorem w1_main_arg20 : W1 m ρ c (Proc.devRef .tc main_arg20) = (m ((c : Thread nD τ).loc main_arg20)) := h0_main_arg20 (W0 m ρ c)
theorem w1_main_arg21 : W1 m ρ c (Proc.devRef .tc main_arg21) = (m ((c : Thread nD τ).loc main_arg21)) := h0_main_arg21 (W0 m ρ c)

/-- Launch 0's output array is the first layer's output. -/
theorem w2_main_v28 : (W2 m ρ c (Proc.devRef .tc main_v28) : FVec Ideal S100000x128 .f32) = X1 m c := by
  refine (W2_arr m ρ c 6).trans ((final0 (V1 m ρ) c).trans ?_)
  unfold G0 X1
  rw [show (V1 m ρ c main_v15 : FVec Ideal S100000x128 .f32) = _ from w1_main_v15 m ρ c,
    show (V1 m ρ c main_arg0 : FVec Ideal S100000x128 .f32) = _ from w1_main_arg0 m ρ c,
    show (V1 m ρ c main_arg2 : FVec Ideal S128x128 .f32) = _ from w1_main_arg2 m ρ c,
    show (V1 m ρ c main_v26 : FVec Ideal S1x128 .f32) = _ from w1_main_v26 m ρ c,
    show (V1 m ρ c main_v22 : FVec Ideal S128x128 .f32) = _ from w1_main_v22 m ρ c,
    show (V1 m ρ c main_v27 : FVec Ideal S1x128 .f32) = _ from w1_main_v27 m ρ c]
theorem w2_main_v1 : W2 m ρ c (Proc.devRef .tc main_v1) = srcOf (m ((c : Thread nD τ).loc main_arg1)) := (W2_of_ne m ρ c main_v1 (by decide)).trans (w1_main_v1 m ρ c)
theorem w2_main_v3 : W2 m ρ c (Proc.devRef .tc main_v3) = dstOf (m ((c : Thread nD τ).loc main_arg1)) := (W2_of_ne m ρ c main_v3 (by decide)).trans (w1_main_v3 m ρ c)
theorem w2_main_arg6 : W2 m ρ c (Proc.devRef .tc main_arg6) = (m ((c : Thread nD τ).loc main_arg6)) := (W2_of_ne m ρ c main_arg6 (by decide)).trans (w1_main_arg6 m ρ c)
theorem w2_main_arg7 : W2 m ρ c (Proc.devRef .tc main_arg7) = (m ((c : Thread nD τ).loc main_arg7)) := (W2_of_ne m ρ c main_arg7 (by decide)).trans (w1_main_arg7 m ρ c)
theorem w2_main_arg8 : W2 m ρ c (Proc.devRef .tc main_arg8) = (m ((c : Thread nD τ).loc main_arg8)) := (W2_of_ne m ρ c main_arg8 (by decide)).trans (w1_main_arg8 m ρ c)
theorem w2_main_arg9 : W2 m ρ c (Proc.devRef .tc main_arg9) = (m ((c : Thread nD τ).loc main_arg9)) := (W2_of_ne m ρ c main_arg9 (by decide)).trans (w1_main_arg9 m ρ c)
theorem w2_main_arg10 : W2 m ρ c (Proc.devRef .tc main_arg10) = (m ((c : Thread nD τ).loc main_arg10)) := (W2_of_ne m ρ c main_arg10 (by decide)).trans (w1_main_arg10 m ρ c)
theorem w2_main_arg11 : W2 m ρ c (Proc.devRef .tc main_arg11) = (m ((c : Thread nD τ).loc main_arg11)) := (W2_of_ne m ρ c main_arg11 (by decide)).trans (w1_main_arg11 m ρ c)
theorem w2_main_arg12 : W2 m ρ c (Proc.devRef .tc main_arg12) = (m ((c : Thread nD τ).loc main_arg12)) := (W2_of_ne m ρ c main_arg12 (by decide)).trans (w1_main_arg12 m ρ c)
theorem w2_main_arg13 : W2 m ρ c (Proc.devRef .tc main_arg13) = (m ((c : Thread nD τ).loc main_arg13)) := (W2_of_ne m ρ c main_arg13 (by decide)).trans (w1_main_arg13 m ρ c)
theorem w2_main_arg18 : W2 m ρ c (Proc.devRef .tc main_arg18) = (m ((c : Thread nD τ).loc main_arg18)) := (W2_of_ne m ρ c main_arg18 (by decide)).trans (w1_main_arg18 m ρ c)
theorem w2_main_arg19 : W2 m ρ c (Proc.devRef .tc main_arg19) = (m ((c : Thread nD τ).loc main_arg19)) := (W2_of_ne m ρ c main_arg19 (by decide)).trans (w1_main_arg19 m ρ c)
theorem w2_main_arg20 : W2 m ρ c (Proc.devRef .tc main_arg20) = (m ((c : Thread nD τ).loc main_arg20)) := (W2_of_ne m ρ c main_arg20 (by decide)).trans (w1_main_arg20 m ρ c)
theorem w2_main_arg21 : W2 m ρ c (Proc.devRef .tc main_arg21) = (m ((c : Thread nD τ).loc main_arg21)) := (W2_of_ne m ρ c main_arg21 (by decide)).trans (w1_main_arg21 m ρ c)

theorem w3_main_v40 : (W3 m ρ c (Proc.devRef .tc main_v40) : FVec Ideal S100000x128 .f32) = aggOf (X1 m c) (srcOf (m ((c : Thread nD τ).loc main_arg1))) (dstOf (m ((c : Thread nD τ).loc main_arg1))) := by
  refine (h1_main_v40 (W2 m ρ c)).trans ?_
  rw [show (W2 m ρ c (Proc.devRef .tc main_v28) : FVec Ideal S100000x128 .f32) = _ from w2_main_v28 m ρ c,
    show (W2 m ρ c (Proc.devRef .tc main_v1) : IVec S1600000 32) = _ from w2_main_v1 m ρ c,
    show (W2 m ρ c (Proc.devRef .tc main_v3) : IVec S1600000 32) = _ from w2_main_v3 m ρ c]
theorem w3_main_v28 : (W3 m ρ c (Proc.devRef .tc main_v28) : FVec Ideal S100000x128 .f32) = X1 m c :=
  (h1_main_v28 (W2 m ρ c)).trans (w2_main_v28 m ρ c)
theorem w3_main_v51 : (W3 m ρ c (Proc.devRef .tc main_v51) : FVec Ideal S1x128 .f32) = row128 (m ((c : Thread nD τ).loc main_arg7)) := by
  refine (h1_main_v51 (W2 m ρ c)).trans ?_
  rw [show (W2 m ρ c (Proc.devRef .tc main_arg7) : FVec Ideal S128 .f32) = _ from w2_main_arg7 m ρ c]
theorem w3_main_v47 : (W3 m ρ c (Proc.devRef .tc main_v47) : FVec Ideal S128x128 .f32) = w2f (m ((c : Thread nD τ).loc main_arg8)) (m ((c : Thread nD τ).loc main_arg18)) (m ((c : Thread nD τ).loc main_arg21)) := by
  refine (h1_main_v47 (W2 m ρ c)).trans ?_
  rw [show (W2 m ρ c (Proc.devRef .tc main_arg8) : FVec Ideal S128x128 .f32) = _ from w2_main_arg8 m ρ c,
    show (W2 m ρ c (Proc.devRef .tc main_arg18) : FVec Ideal S128 .f32) = _ from w2_main_arg18 m ρ c,
    show (W2 m ρ c (Proc.devRef .tc main_arg21) : FVec Ideal S128 .f32) = _ from w2_main_arg21 m ρ c]
theorem w3_main_v52 : (W3 m ρ c (Proc.devRef .tc main_v52) : FVec Ideal S1x128 .f32) = b2fr (m ((c : Thread nD τ).loc main_arg9)) (m ((c : Thread nD τ).loc main_arg20)) (m ((c : Thread nD τ).loc main_arg18)) (m ((c : Thread nD τ).loc main_arg21)) (m ((c : Thread nD τ).loc main_arg19)) := by
  refine (h1_main_v52 (W2 m ρ c)).trans ?_
  rw [show (W2 m ρ c (Proc.devRef .tc main_arg9) : FVec Ideal S128 .f32) = _ from w2_main_arg9 m ρ c,
    show (W2 m ρ c (Proc.devRef .tc main_arg20) : FVec Ideal S128 .f32) = _ from w2_main_arg20 m ρ c,
    show (W2 m ρ c (Proc.devRef .tc main_arg18) : FVec Ideal S128 .f32) = _ from w2_main_arg18 m ρ c,
    show (W2 m ρ c (Proc.devRef .tc main_arg21) : FVec Ideal S128 .f32) = _ from w2_main_arg21 m ρ c,
    show (W2 m ρ c (Proc.devRef .tc main_arg19) : FVec Ideal S128 .f32) = _ from w2_main_arg19 m ρ c]
theorem w3_main_v1 : W3 m ρ c (Proc.devRef .tc main_v1) = srcOf (m ((c : Thread nD τ).loc main_arg1)) := (h1_main_v1 (W2 m ρ c)).trans (w2_main_v1 m ρ c)
theorem w3_main_v3 : W3 m ρ c (Proc.devRef .tc main_v3) = dstOf (m ((c : Thread nD τ).loc main_arg1)) := (h1_main_v3 (W2 m ρ c)).trans (w2_main_v3 m ρ c)
theorem w3_main_arg6 : W3 m ρ c (Proc.devRef .tc main_arg6) = (m ((c : Thread nD τ).loc main_arg6)) := (h1_main_arg6 (W2 m ρ c)).trans (w2_main_arg6 m ρ c)
theorem w3_main_arg10 : W3 m ρ c (Proc.devRef .tc main_arg10) = (m ((c : Thread nD τ).loc main_arg10)) := (h1_main_arg10 (W2 m ρ c)).trans (w2_main_arg10 m ρ c)
theorem w3_main_arg11 : W3 m ρ c (Proc.devRef .tc main_arg11) = (m ((c : Thread nD τ).loc main_arg11)) := (h1_main_arg11 (W2 m ρ c)).trans (w2_main_arg11 m ρ c)
theorem w3_main_arg12 : W3 m ρ c (Proc.devRef .tc main_arg12) = (m ((c : Thread nD τ).loc main_arg12)) := (h1_main_arg12 (W2 m ρ c)).trans (w2_main_arg12 m ρ c)
theorem w3_main_arg13 : W3 m ρ c (Proc.devRef .tc main_arg13) = (m ((c : Thread nD τ).loc main_arg13)) := (h1_main_arg13 (W2 m ρ c)).trans (w2_main_arg13 m ρ c)

/-- Launch 1's output array is the second layer's output. -/
theorem w4_main_v53 : (W4 m ρ c (Proc.devRef .tc main_v53) : FVec Ideal S100000x128 .f32) = X2 m c := by
  refine (W4_arr m ρ c 6).trans ((final1 (V3 m ρ) c).trans ?_)
  unfold G1 X2
  rw [show (V3 m ρ c main_v40 : FVec Ideal S100000x128 .f32) = _ from w3_main_v40 m ρ c,
    show (V3 m ρ c main_v28 : FVec Ideal S100000x128 .f32) = _ from w3_main_v28 m ρ c,
    show (V3 m ρ c main_arg6 : FVec Ideal S128x128 .f32) = _ from w3_main_arg6 m ρ c,
    show (V3 m ρ c main_v51 : FVec Ideal S1x128 .f32) = _ from w3_main_v51 m ρ c,
    show (V3 m ρ c main_v47 : FVec Ideal S128x128 .f32) = _ from w3_main_v47 m ρ c,
    show (V3 m ρ c main_v52 : FVec Ideal S1x128 .f32) = _ from w3_main_v52 m ρ c]
theorem w4_main_v1 : W4 m ρ c (Proc.devRef .tc main_v1) = srcOf (m ((c : Thread nD τ).loc main_arg1)) := (W4_of_ne m ρ c main_v1 (by decide)).trans (w3_main_v1 m ρ c)
theorem w4_main_v3 : W4 m ρ c (Proc.devRef .tc main_v3) = dstOf (m ((c : Thread nD τ).loc main_arg1)) := (W4_of_ne m ρ c main_v3 (by decide)).trans (w3_main_v3 m ρ c)
theorem w4_main_arg10 : W4 m ρ c (Proc.devRef .tc main_arg10) = (m ((c : Thread nD τ).loc main_arg10)) := (W4_of_ne m ρ c main_arg10 (by decide)).trans (w3_main_arg10 m ρ c)
theorem w4_main_arg11 : W4 m ρ c (Proc.devRef .tc main_arg11) = (m ((c : Thread nD τ).loc main_arg11)) := (W4_of_ne m ρ c main_arg11 (by decide)).trans (w3_main_arg11 m ρ c)
theorem w4_main_arg12 : W4 m ρ c (Proc.devRef .tc main_arg12) = (m ((c : Thread nD τ).loc main_arg12)) := (W4_of_ne m ρ c main_arg12 (by decide)).trans (w3_main_arg12 m ρ c)
theorem w4_main_arg13 : W4 m ρ c (Proc.devRef .tc main_arg13) = (m ((c : Thread nD τ).loc main_arg13)) := (W4_of_ne m ρ c main_arg13 (by decide)).trans (w3_main_arg13 m ρ c)

theorem w5_main_v65 : (W5 m ρ c (Proc.devRef .tc main_v65) : FVec Ideal S100000x128 .f32) = aggOf (X2 m c) (srcOf (m ((c : Thread nD τ).loc main_arg1))) (dstOf (m ((c : Thread nD τ).loc main_arg1))) := by
  refine (h2_main_v65 (W4 m ρ c)).trans ?_
  rw [show (W4 m ρ c (Proc.devRef .tc main_v53) : FVec Ideal S100000x128 .f32) = _ from w4_main_v53 m ρ c,
    show (W4 m ρ c (Proc.devRef .tc main_v1) : IVec S1600000 32) = _ from w4_main_v1 m ρ c,
    show (W4 m ρ c (Proc.devRef .tc main_v3) : IVec S1600000 32) = _ from w4_main_v3 m ρ c]
theorem w5_main_v53 : (W5 m ρ c (Proc.devRef .tc main_v53) : FVec Ideal S100000x128 .f32) = X2 m c :=
  (h2_main_v53 (W4 m ρ c)).trans (w4_main_v53 m ρ c)
theorem w5_main_arg10 : W5 m ρ c (Proc.devRef .tc main_arg10) = (m ((c : Thread nD τ).loc main_arg10)) := (h2_main_arg10 (W4 m ρ c)).trans (w4_main_arg10 m ρ c)
theorem w5_main_arg12 : W5 m ρ c (Proc.devRef .tc main_arg12) = (m ((c : Thread nD τ).loc main_arg12)) := (h2_main_arg12 (W4 m ρ c)).trans (w4_main_arg12 m ρ c)
theorem w5_main_v66 : (W5 m ρ c (Proc.devRef .tc main_v66) : FVec Ideal S1x128 .f32) = row128 (m ((c : Thread nD τ).loc main_arg11)) := by
  refine (h2_main_v66 (W4 m ρ c)).trans ?_
  rw [show (W4 m ρ c (Proc.devRef .tc main_arg11) : FVec Ideal S128 .f32) = _ from w4_main_arg11 m ρ c]
theorem w5_main_v67 : (W5 m ρ c (Proc.devRef .tc main_v67) : FVec Ideal S1x64 .f32) = row64 (m ((c : Thread nD τ).loc main_arg13)) := by
  refine (h2_main_v67 (W4 m ρ c)).trans ?_
  rw [show (W4 m ρ c (Proc.devRef .tc main_arg13) : FVec Ideal S64 .f32) = _ from w4_main_arg13 m ρ c]

/-- THE KERNEL PROGRAM'S RESULT: the last boundary's contents of the result buffer is the three layers composed. -/
theorem kernel_value : (W6 m ρ c (Proc.devRef .tc main_v68) : FVec Ideal S100000x64 .f32) = OUT m c := by
  refine (W6_arr m ρ c 6).trans ((final2 (V5 m ρ) c).trans ?_)
  unfold G2 OUT
  rw [show (V5 m ρ c main_v65 : FVec Ideal S100000x128 .f32) = _ from w5_main_v65 m ρ c,
    show (V5 m ρ c main_v53 : FVec Ideal S100000x128 .f32) = _ from w5_main_v53 m ρ c,
    show (V5 m ρ c main_arg10 : FVec Ideal S128x128 .f32) = _ from w5_main_arg10 m ρ c,
    show (V5 m ρ c main_v66 : FVec Ideal S1x128 .f32) = _ from w5_main_v66 m ρ c,
    show (V5 m ρ c main_arg12 : FVec Ideal S128x64 .f32) = _ from w5_main_arg12 m ρ c,
    show (V5 m ρ c main_v67 : FVec Ideal S1x64 .f32) = _ from w5_main_v67 m ρ c]

end Walk

end Cert.KernelIdeal.Host

end
-- ==== Proof.RefRunVal.lean ====
/-
  The reference program's run, stated against its last stage. The program is a line of 134 host operations; each buffer's
  contents after the line is the fold of the operations' results. The line is cut at the ends of its first and second layers, and before the last layer's log-softmax:
  a layer's result buffer, read back through that layer's operations only, is the layer's stages composed on the buffers the
  layer finds — the previous layer's output, the two edge-index vectors, and the layer's parameters —, and a buffer a segment
  does not write keeps its contents. Chaining the three segments gives the result buffer as the last stage of the arguments'
  launch contents, one layer's worth of unfolding at a time.
-/
import proofs.«153170_j87926570483778_2_alg».proof.Proof.RefRun
import proofs.«153170_j87926570483778_2_alg».proof.Proof.RefRead

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The fold over a line of operations, cut after its first `n`. -/
theorem after_take_drop (n : Nat) : ∀ (l : List (HloOp τ sig (Elt F))) (V : Valuation τ sig (Elt F)),
    after l V = after (l.drop n) (after (l.take n) V) := by
  induction n with
  | zero => intro l V; rfl
  | succ n ih =>
    intro l V
    cases l with
    | nil => rfl
    | cons a l => simp only [List.take_succ_cons, List.drop_succ_cons, after_cons]; exact ih l _

section Segments

-- the row maximum is a fold of `max` over the entries of a row
attribute [local irreducible] Idealize.ShloMosaic.Host.reduce

variable (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128, .f32⟩ : BufTy).Contents (Elt F))

/-! ## The first layer's operations (the first 49) -/

set_option maxRecDepth 65536 in
set_option maxHeartbeats 8000000 in
theorem segA_v40 : after ((ops (F := F)).take 49) V (Proc.devRef .tc main_v40)
    = Cert.ReferenceIdeal.Read.val_main_v40 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg14)) (V (Proc.devRef .tc main_arg15)) (V (Proc.devRef .tc main_arg16)) (V (Proc.devRef .tc main_arg17)) := by
  simp only [ops, List.take_succ_cons, List.take_zero]
  after_results_simp <;> rfl
set_option maxRecDepth 65536 in
set_option maxHeartbeats 8000000 in
theorem segA_v1 : after ((ops (F := F)).take 49) V (Proc.devRef .tc main_v1) = Cert.ReferenceIdeal.Read.val_main_v1 (F := F) (V (Proc.devRef .tc main_arg1)) := by
  simp only [ops, List.take_succ_cons, List.take_zero]
  after_results_simp <;> rfl
set_option maxRecDepth 65536 in
set_option maxHeartbeats 8000000 in
theorem segA_v3 : after ((ops (F := F)).take 49) V (Proc.devRef .tc main_v3) = Cert.ReferenceIdeal.Read.val_main_v3 (F := F) (V (Proc.devRef .tc main_arg1)) := by
  simp only [ops, List.take_succ_cons, List.take_zero]
  after_results_simp <;> rfl
set_option maxRecDepth 65536 in
set_option maxHeartbeats 8000000 in
theorem segA_keep_main_arg6 : after ((ops (F := F)).take 49) V (Proc.devRef .tc main_arg6) = V (Proc.devRef .tc main_arg6) := by
  simp only [ops, List.take_succ_cons, List.take_zero]
  after_results_simp <;> rfl
set_option maxRecDepth 65536 in
set_option maxHeartbeats 8000000 in
theorem segA_keep_main_arg7 : after ((ops (F := F)).take 49) V (Proc.devRef .tc main_arg7) = V (Proc.devRef .tc main_arg7) := by
  simp only [ops, List.take_succ_cons, List.take_zero]
  after_results_simp <;> rfl
set_option maxRecDepth 65536 in
set_option maxHeartbeats 8000000 in
theorem segA_keep_main_arg8 : after ((ops (F := F)).take 49) V (Proc.devRef .tc main_arg8) = V (Proc.devRef .tc main_arg8) := by
  simp only [ops, List.take_succ_cons, List.take_zero]
  after_results_simp <;> rfl
set_option maxRecDepth 65536 in
set_option maxHeartbeats 8000000 in
theorem segA_keep_main_arg9 : after ((ops (F := F)).take 49) V (Proc.devRef .tc main_arg9) = V (Proc.devRef .tc main_arg9) := by
  simp only [ops, List.take_succ_cons, List.take_zero]
  after_results_simp <;> rfl
set_option maxRecDepth 65536 in
set_option maxHeartbeats 8000000 in
theorem segA_keep_main_arg10 : after ((ops (F := F)).take 49) V (Proc.devRef .tc main_arg10) = V (Proc.devRef .tc main_arg10) := by
  simp only [ops, List.take_succ_cons, List.take_zero]
  after_results_simp <;> rfl
set_option maxRecDepth 65536 in
set_option maxHeartbeats 8000000 in
theorem segA_keep_main_arg11 : after ((ops (F := F)).take 49) V (Proc.devRef .tc main_arg11) = V (Proc.devRef .tc main_arg11) := by
  simp only [ops, List.take_succ_cons, List.take_zero]
  after_results_simp <;> rfl
set_option maxRecDepth 65536 in
set_option maxHeartbeats 8000000 in
theorem segA_keep_main_arg12 : after ((ops (F := F)).take 49) V (Proc.devRef .tc main_arg12) = V (Proc.devRef .tc main_arg12) := by
  simp only [ops, List.take_succ_cons, List.take_zero]
  after_results_simp <;> rfl
set_option maxRecDepth 65536 in
set_option maxHeartbeats 8000000 in
theorem segA_keep_main_arg13 : after ((ops (F := F)).take 49) V (Proc.devRef .tc main_arg13) = V (Proc.devRef .tc main_arg13) := by
  simp only [ops, List.take_succ_cons, List.take_zero]
  after_results_simp <;> rfl
set_option maxRecDepth 65536 in
set_option maxHeartbeats 8000000 in
theorem segA_keep_main_arg18 : after ((ops (F := F)).take 49) V (Proc.devRef .tc main_arg18) = V (Proc.devRef .tc main_arg18) := by
  simp only [ops, List.take_succ_cons, List.take_zero]
  after_results_simp <;> rfl
set_option maxRecDepth 65536 in
set_option maxHeartbeats 8000000 in
theorem segA_keep_main_arg19 : after ((ops (F := F)).take 49) V (Proc.devRef .tc main_arg19) = V (Proc.devRef .tc main_arg19) := by
  simp only [ops, List.take_succ_cons, List.take_zero]
  after_results_simp <;> rfl
set_option maxRecDepth 65536 in
set_option maxHeartbeats 8000000 in
theorem segA_keep_main_arg20 : after ((ops (F := F)).take 49) V (Proc.devRef .tc main_arg20) = V (Proc.devRef .tc main_arg20) := by
  simp only [ops, List.take_succ_cons, List.take_zero]
  after_results_simp <;> rfl
set_option maxRecDepth 65536 in
set_option maxHeartbeats 8000000 in
theorem segA_keep_main_arg21 : after ((ops (F := F)).take 49) V (Proc.devRef .tc main_arg21) = V (Proc.devRef .tc main_arg21) := by
  simp only [ops, List.take_succ_cons, List.take_zero]
  after_results_simp <;> rfl

/-! ## The second layer's operations (the next 45) -/

set_option maxRecDepth 65536 in
set_option maxHeartbeats 8000000 in
theorem segB_v77 (h40 : V (Proc.devRef .tc main_v40) = Cert.ReferenceIdeal.Read.val_main_v40 (F := F) x0 x1 x2 x3 x4 x5 x14 x15 x16 x17)
    (h1 : V (Proc.devRef .tc main_v1) = Cert.ReferenceIdeal.Read.val_main_v1 (F := F) x1) (h3 : V (Proc.devRef .tc main_v3) = Cert.ReferenceIdeal.Read.val_main_v3 (F := F) x1)
    (h_6 : V (Proc.devRef .tc main_arg6) = x6) (h_7 : V (Proc.devRef .tc main_arg7) = x7) (h_8 : V (Proc.devRef .tc main_arg8) = x8) (h_9 : V (Proc.devRef .tc main_arg9) = x9) (h_18 : V (Proc.devRef .tc main_arg18) = x18) (h_19 : V (Proc.devRef .tc main_arg19) = x19) (h_20 : V (Proc.devRef .tc main_arg20) = x20) (h_21 : V (Proc.devRef .tc main_arg21) = x21) :
    after (((ops (F := F)).drop 49).take 45) V (Proc.devRef .tc main_v77) = Cert.ReferenceIdeal.Read.val_main_v77 (F := F) x0 x1 x2 x3 x4 x5 x6 x7 x8 x9 x14 x15 x16 x17 x18 x19 x20 x21 := by
  simp only [ops, List.drop_succ_cons, List.drop_zero, List.take_succ_cons, List.take_zero]
  after_results_simp
  simp only [h40, h1, h3, h_6, h_7, h_8, h_9, h_18, h_19, h_20, h_21]
  rfl
set_option maxRecDepth 65536 in
set_option maxHeartbeats 8000000 in
theorem segB_keep_main_v1 : after (((ops (F := F)).drop 49).take 45) V (Proc.devRef .tc main_v1) = V (Proc.devRef .tc main_v1) := by
  simp only [ops, List.drop_succ_cons, List.drop_zero, List.take_succ_cons, List.take_zero]
  after_results_simp <;> rfl
set_option maxRecDepth 65536 in
set_option maxHeartbeats 8000000 in
theorem segB_keep_main_v3 : after (((ops (F := F)).drop 49).take 45) V (Proc.devRef .tc main_v3) = V (Proc.devRef .tc main_v3) := by
  simp only [ops, List.drop_succ_cons, List.drop_zero, List.take_succ_cons, List.take_zero]
  after_results_simp <;> rfl
set_option maxRecDepth 65536 in
set_option maxHeartbeats 8000000 in
theorem segB_keep_main_arg10 : after (((ops (F := F)).drop 49).take 45) V (Proc.devRef .tc main_arg10) = V (Proc.devRef .tc main_arg10) := by
  simp only [ops, List.drop_succ_cons, List.drop_zero, List.take_succ_cons, List.take_zero]
  after_results_simp <;> rfl
set_option maxRecDepth 65536 in
set_option maxHeartbeats 8000000 in
theorem segB_keep_main_arg11 : after (((ops (F := F)).drop 49).take 45) V (Proc.devRef .tc main_arg11) = V (Proc.devRef .tc main_arg11) := by
  simp only [ops, List.drop_succ_cons, List.drop_zero, List.take_succ_cons, List.take_zero]
  after_results_simp <;> rfl
set_option maxRecDepth 65536 in
set_option maxHeartbeats 8000000 in
theorem segB_keep_main_arg12 : after (((ops (F := F)).drop 49).take 45) V (Proc.devRef .tc main_arg12) = V (Proc.devRef .tc main_arg12) := by
  simp only [ops, List.drop_succ_cons, List.drop_zero, List.take_succ_cons, List.take_zero]
  after_results_simp <;> rfl
set_option maxRecDepth 65536 in
set_option maxHeartbeats 8000000 in
theorem segB_keep_main_arg13 : after (((ops (F := F)).drop 49).take 45) V (Proc.devRef .tc main_arg13) = V (Proc.devRef .tc main_arg13) := by
  simp only [ops, List.drop_succ_cons, List.drop_zero, List.take_succ_cons, List.take_zero]
  after_results_simp <;> rfl

/-! ## The last layer's operations up to its linear output (the next 25) -/

set_option maxRecDepth 65536 in
set_option maxHeartbeats 8000000 in
theorem segC1_v97 (h77 : V (Proc.devRef .tc main_v77) = Cert.ReferenceIdeal.Read.val_main_v77 (F := F) x0 x1 x2 x3 x4 x5 x6 x7 x8 x9 x14 x15 x16 x17 x18 x19 x20 x21)
    (h1 : V (Proc.devRef .tc main_v1) = Cert.ReferenceIdeal.Read.val_main_v1 (F := F) x1) (h3 : V (Proc.devRef .tc main_v3) = Cert.ReferenceIdeal.Read.val_main_v3 (F := F) x1)
    (h_10 : V (Proc.devRef .tc main_arg10) = x10) (h_11 : V (Proc.devRef .tc main_arg11) = x11) (h_12 : V (Proc.devRef .tc main_arg12) = x12) (h_13 : V (Proc.devRef .tc main_arg13) = x13) :
    after ((((ops (F := F)).drop 49).drop 45).take 25) V (Proc.devRef .tc main_v97) = Cert.ReferenceIdeal.Read.val_main_v97 (F := F) x0 x1 x2 x3 x4 x5 x6 x7 x8 x9 x10 x11 x12 x13 x14 x15 x16 x17 x18 x19 x20 x21 := by
  simp only [ops, List.drop_succ_cons, List.drop_zero, List.take_succ_cons, List.take_zero]
  after_results_simp
  simp only [h77, h1, h3, h_10, h_11, h_12, h_13]
  rfl

/-! ## The row-wise log-softmax (the last 15 operations)

These are the operations of a called function, each reading and writing its buffers through a transport between a buffer's own
type and the value's type. The transports cancel in pairs; the two that do not (reading the layer's linear output, writing the
result) are identities. With them gone the composed operations are, textually, the last stage unfolded. -/

/-- Reading a typed reference's contents back at the value's type undoes writing them at the buffer's type. -/
theorem ofBuf_toBuf' {T : BufTy} (x : TRef sig T) (v : T.Contents (Elt F)) : x.ofBuf (x.toBuf v) = v := by
  obtain ⟨r, hty, h2, h3⟩ := x
  subst hty
  rfl

theorem ofBuf_main_v97 (p1 : main_v97.ty = (⟨S100000x64, .f32⟩ : BufTy)) (p2 : main_v97.space ≠ .host) (p3 : main_v97.isScoped = false)
    (X : (⟨S100000x64, .f32⟩ : BufTy).Contents (Elt F)) : (TRef.of main_v97 p1 p2 p3).ofBuf X = X := rfl

theorem toBuf_main_v98 (p1 : main_v98.ty = (⟨S100000x64, .f32⟩ : BufTy)) (p2 : main_v98.space ≠ .host) (p3 : main_v98.isScoped = false)
    (X : (⟨S100000x64, .f32⟩ : BufTy).Contents (Elt F)) : (TRef.of main_v98 p1 p2 p3).toBuf X = X := rfl

set_option maxRecDepth 65536 in
set_option maxHeartbeats 8000000 in
theorem segC2_v98 (h97 : V (Proc.devRef .tc main_v97) = Cert.ReferenceIdeal.Read.val_main_v97 (F := F) x0 x1 x2 x3 x4 x5 x6 x7 x8 x9 x10 x11 x12 x13 x14 x15 x16 x17 x18 x19 x20 x21) :
    after ((((ops (F := F)).drop 49).drop 45).drop 25) V (Proc.devRef .tc main_v98) = Cert.ReferenceIdeal.Read.val_main_v98 (F := F) x0 x1 x2 x3 x4 x5 x6 x7 x8 x9 x10 x11 x12 x13 x14 x15 x16 x17 x18 x19 x20 x21 := by
  simp only [ops, List.drop_succ_cons, List.drop_zero]
  after_results_simp
  simp only [h97]
  simp only [ofBuf_toBuf', ofBuf_main_v97]
  refine (toBuf_main_v98 _ _ _ _).trans ?_
  simp only [Cert.ReferenceIdeal.Read.val_main_call5_cst, Cert.ReferenceIdeal.Read.val_main_call5_v0, Cert.ReferenceIdeal.Read.val_main_call5_cst_0, Cert.ReferenceIdeal.Read.val_main_call5_v1, Cert.ReferenceIdeal.Read.val_main_call5_v2, Cert.ReferenceIdeal.Read.val_main_call5_v3, Cert.ReferenceIdeal.Read.val_main_call5_v4, Cert.ReferenceIdeal.Read.val_main_call5_v5, Cert.ReferenceIdeal.Read.val_main_call5_v6, Cert.ReferenceIdeal.Read.val_main_call5_cst_1, Cert.ReferenceIdeal.Read.val_main_call5_v7, Cert.ReferenceIdeal.Read.val_main_call5_v8, Cert.ReferenceIdeal.Read.val_main_call5_v9, Cert.ReferenceIdeal.Read.val_main_call5_v10, Cert.ReferenceIdeal.Read.val_main_v98]

end Segments

/-- The result buffer after the whole line: the last stage of the contents the line finds in the argument buffers. -/
theorem after_ops_v98 (W : Valuation τ sig (Elt F)) :
    after (ops (F := F)) W (Proc.devRef .tc main_v98)
      = Cert.ReferenceIdeal.Read.val_main_v98 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  rw [after_take_drop 49 (ops (F := F)) W, after_take_drop 45 ((ops (F := F)).drop 49) _,
    after_take_drop 25 (((ops (F := F)).drop 49).drop 45) _]
  exact segC2_v98 _ (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21))
    (segC1_v97 _ (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21))
      (segB_v77 _ (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21))
        (segA_v40 W) (segA_v1 W) (segA_v3 W) (segA_keep_main_arg6 W) (segA_keep_main_arg7 W) (segA_keep_main_arg8 W) (segA_keep_main_arg9 W) (segA_keep_main_arg18 W) (segA_keep_main_arg19 W) (segA_keep_main_arg20 W) (segA_keep_main_arg21 W))
      ((segB_keep_main_v1 _).trans (segA_v1 W)) ((segB_keep_main_v3 _).trans (segA_v3 W))
      ((segB_keep_main_arg10 _).trans (segA_keep_main_arg10 W)) ((segB_keep_main_arg11 _).trans (segA_keep_main_arg11 W)) ((segB_keep_main_arg12 _).trans (segA_keep_main_arg12 W)) ((segB_keep_main_arg13 _).trans (segA_keep_main_arg13 W)))

set_option maxRecDepth 65536 in
set_option maxHeartbeats 53600000 in
/-- On every device, for any float values, from any memory with zero counters: every weakly fair execution of
    @main terminates with each result at the operations' composed term of the arguments and the arguments
    unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = Cert.ReferenceIdeal.Read.val_main_v98 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v98).trans (after_ops_v98 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl),
      (h c main_arg20).trans (by after_results_simp <;> rfl),
      (h c main_arg21).trans (by after_results_simp <;> rfl)⟩)
    (run_seq scopedRefs_eq scopedSems_eq defs main (fun _ => ops) main_eq (fun _ => ops_sub) m ρ)

end Cert.ReferenceIdeal.RefValue

end
-- ==== Proof.PreFacts.lean ====
/-
  The precondition, read back. The precondition function is the conjunction, over the 21 float arrays x
  among its 22 arguments, of "every entry of |x| is below +∞", followed by "every entry of argument 17 is
  at least 0" and "every entry of argument 21 is at least 0" (argument 1 is an integer array and is not
  constrained). Over the extended reals |x| is max x (-x), so |x| < +∞ says that x is neither +∞ nor -∞
  (the latter also being the value that stands for a NaN): x is a real number. A conjunction over all
  entries is a reduction by "and" from 1 into the one-index scalar shape; if it is 1, every entry is 1.
-/
import proofs.«153170_j87926570483778_2_alg».proof.Pre_finite_inputs
import proofs.«153170_j87926570483778_2_alg».proof.Proof.Gen.Pre_finite_inputs
import Idealize.ShloMosaic.PureOps.Ideal
import Idealize.ShloMosaic.Lib.ReduceAll
import Idealize.ShloMosaic.Lib.ValueIdx

noncomputable section

namespace Cert.PreFacts

open Idealize.ShloMosaic

/-- The scalar shape has exactly one index. -/
instance subsingleton_S_ : Subsingleton Cert.Pre_finite_inputs.S_.Idx :=
  ⟨fun a b => funext fun d => d.elim0⟩

/-- The f32 pattern 0x7F800000 (exponent all ones, significand zero, sign clear) denotes +∞. -/
theorem ofBits_inf : Ideal.ofBits .f32 0x7F800000#32 = (⊤ : EReal) := by
  simp [Ideal.ofBits, Ideal.ieee]

/-- The f32 pattern 0x00000000 denotes 0. -/
theorem ofBits_zero : Ideal.ofBits .f32 0x00000000#32 = (0 : EReal) := by
  simp [Ideal.ofBits, Ideal.ieee]

/-- An extended real whose absolute value max x (-x) is below +∞ is neither infinity:
    at x = +∞ the maximum is +∞, and at x = -∞ it is -(-∞) = +∞. -/
theorem ne_top_bot_of_abs_lt_top (x : EReal) (h : max x (-x) < ⊤) : x ≠ ⊤ ∧ x ≠ ⊥ := by
  constructor
  · rintro rfl; simp at h
  · rintro rfl; simp at h

/-- A one-bit word made from a truth value is 1 exactly when the truth value is true. -/
theorem ofBool_eq_one (b : Bool) : BitVec.ofBool b = 1#1 ↔ b = true := by cases b <;> decide

/-- If the conjunction over all entries of "|x| < +∞" is 1, every entry of x is a real number.
    Any shape s, any list of axes that reduces s to the scalar shape. -/
theorem fin_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) :
    ∀ i, x i ≠ ⊤ ∧ x i ≠ ⊥ := by
  intro i
  -- the entry at i of the compared array is 1
  have hi := Host.reduce_andi_all _ _ hr hu ValueIdx.ix0 e i
  -- that entry is, by definition, the truth value of max (x i) (-(x i)) < (the constant's value)
  have hi' : BitVec.ofBool (decide (max (x i) (-(x i)) < Ideal.ofBits .f32 0x7F800000#32)) = 1#1 := hi
  rw [ofBool_eq_one, decide_eq_true_eq, ofBits_inf] at hi'
  exact ne_top_bot_of_abs_lt_top _ hi'

/-- If the conjunction over all entries of "x ≥ 0" is 1, every entry of x is nonnegative. -/
theorem nonneg_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .oge x (broadcastInDim s ![] hb (constant Cert.Pre_finite_inputs.S_ .f32 0x00000000#32)))
          (constantI Cert.Pre_finite_inputs.S_ 1 1#1) hr hu ValueIdx.ix0 = 1#1) :
    ∀ i, (0 : EReal) ≤ x i := by
  intro i
  have hi := Host.reduce_andi_all _ _ hr hu ValueIdx.ix0 e i
  -- that entry is, by definition, the truth value of (the constant's value) ≤ x i
  have hi' : BitVec.ofBool (decide (Ideal.ofBits .f32 0x00000000#32 ≤ x i)) = 1#1 := hi
  rw [ofBool_eq_one, decide_eq_true_eq, ofBits_zero] at hi'
  exact hi'

/-- What the precondition says of the 21 float arguments: every entry of each is a real number, and the
    entries of arguments 17 and 21 are nonnegative. -/
structure Facts
    (x0 : FVec Ideal Cert.Pre_finite_inputs.S100000x128 .f32)
    (x2 : FVec Ideal Cert.Pre_finite_inputs.S128x128 .f32)
    (x3 : FVec Ideal Cert.Pre_finite_inputs.S128 .f32)
    (x4 : FVec Ideal Cert.Pre_finite_inputs.S128x128 .f32)
    (x5 : FVec Ideal Cert.Pre_finite_inputs.S128 .f32)
    (x6 : FVec Ideal Cert.Pre_finite_inputs.S128x128 .f32)
    (x7 : FVec Ideal Cert.Pre_finite_inputs.S128 .f32)
    (x8 : FVec Ideal Cert.Pre_finite_inputs.S128x128 .f32)
    (x9 : FVec Ideal Cert.Pre_finite_inputs.S128 .f32)
    (x10 : FVec Ideal Cert.Pre_finite_inputs.S128x128 .f32)
    (x11 : FVec Ideal Cert.Pre_finite_inputs.S128 .f32)
    (x12 : FVec Ideal Cert.Pre_finite_inputs.S128x64 .f32)
    (x13 : FVec Ideal Cert.Pre_finite_inputs.S64 .f32)
    (x14 : FVec Ideal Cert.Pre_finite_inputs.S128 .f32)
    (x15 : FVec Ideal Cert.Pre_finite_inputs.S128 .f32)
    (x16 : FVec Ideal Cert.Pre_finite_inputs.S128 .f32)
    (x17 : FVec Ideal Cert.Pre_finite_inputs.S128 .f32)
    (x18 : FVec Ideal Cert.Pre_finite_inputs.S128 .f32)
    (x19 : FVec Ideal Cert.Pre_finite_inputs.S128 .f32)
    (x20 : FVec Ideal Cert.Pre_finite_inputs.S128 .f32)
    (x21 : FVec Ideal Cert.Pre_finite_inputs.S128 .f32) : Prop where
  /-- every entry of argument 0 is a real number -/
  fin_0 : ∀ i, x0 i ≠ ⊤ ∧ x0 i ≠ ⊥
  /-- every entry of argument 2 is a real number -/
  fin_2 : ∀ i, x2 i ≠ ⊤ ∧ x2 i ≠ ⊥
  /-- every entry of argument 3 is a real number -/
  fin_3 : ∀ i, x3 i ≠ ⊤ ∧ x3 i ≠ ⊥
  /-- every entry of argument 4 is a real number -/
  fin_4 : ∀ i, x4 i ≠ ⊤ ∧ x4 i ≠ ⊥
  /-- every entry of argument 5 is a real number -/
  fin_5 : ∀ i, x5 i ≠ ⊤ ∧ x5 i ≠ ⊥
  /-- every entry of argument 6 is a real number -/
  fin_6 : ∀ i, x6 i ≠ ⊤ ∧ x6 i ≠ ⊥
  /-- every entry of argument 7 is a real number -/
  fin_7 : ∀ i, x7 i ≠ ⊤ ∧ x7 i ≠ ⊥
  /-- every entry of argument 8 is a real number -/
  fin_8 : ∀ i, x8 i ≠ ⊤ ∧ x8 i ≠ ⊥
  /-- every entry of argument 9 is a real number -/
  fin_9 : ∀ i, x9 i ≠ ⊤ ∧ x9 i ≠ ⊥
  /-- every entry of argument 10 is a real number -/
  fin_10 : ∀ i, x10 i ≠ ⊤ ∧ x10 i ≠ ⊥
  /-- every entry of argument 11 is a real number -/
  fin_11 : ∀ i, x11 i ≠ ⊤ ∧ x11 i ≠ ⊥
  /-- every entry of argument 12 is a real number -/
  fin_12 : ∀ i, x12 i ≠ ⊤ ∧ x12 i ≠ ⊥
  /-- every entry of argument 13 is a real number -/
  fin_13 : ∀ i, x13 i ≠ ⊤ ∧ x13 i ≠ ⊥
  /-- every entry of argument 14 is a real number -/
  fin_14 : ∀ i, x14 i ≠ ⊤ ∧ x14 i ≠ ⊥
  /-- every entry of argument 15 is a real number -/
  fin_15 : ∀ i, x15 i ≠ ⊤ ∧ x15 i ≠ ⊥
  /-- every entry of argument 16 is a real number -/
  fin_16 : ∀ i, x16 i ≠ ⊤ ∧ x16 i ≠ ⊥
  /-- every entry of argument 17 is a real number -/
  fin_17 : ∀ i, x17 i ≠ ⊤ ∧ x17 i ≠ ⊥
  /-- every entry of argument 18 is a real number -/
  fin_18 : ∀ i, x18 i ≠ ⊤ ∧ x18 i ≠ ⊥
  /-- every entry of argument 19 is a real number -/
  fin_19 : ∀ i, x19 i ≠ ⊤ ∧ x19 i ≠ ⊥
  /-- every entry of argument 20 is a real number -/
  fin_20 : ∀ i, x20 i ≠ ⊤ ∧ x20 i ≠ ⊥
  /-- every entry of argument 21 is a real number -/
  fin_21 : ∀ i, x21 i ≠ ⊤ ∧ x21 i ≠ ⊥
  /-- every entry of argument 17 is nonnegative -/
  nonneg_17 : ∀ i, (0 : EReal) ≤ x17 i
  /-- every entry of argument 21 is nonnegative -/
  nonneg_21 : ∀ i, (0 : EReal) ≤ x21 i

/-- THE PRECONDITION DECODED: if the precondition function evaluates to 1, the facts above hold.
    The function's value at the one scalar index is a left-nested conjunction of 23 one-bit words;
    it is 1 exactly when each of them is, and each is one of the two conjunctions over all entries above. -/
theorem of_pre [Cert.Pre_finite_inputs.Facts]
    (x0 : FVec Ideal Cert.Pre_finite_inputs.S100000x128 .f32)
    (x1 : IVec Cert.Pre_finite_inputs.S2x1600000 32)
    (x2 : FVec Ideal Cert.Pre_finite_inputs.S128x128 .f32)
    (x3 : FVec Ideal Cert.Pre_finite_inputs.S128 .f32)
    (x4 : FVec Ideal Cert.Pre_finite_inputs.S128x128 .f32)
    (x5 : FVec Ideal Cert.Pre_finite_inputs.S128 .f32)
    (x6 : FVec Ideal Cert.Pre_finite_inputs.S128x128 .f32)
    (x7 : FVec Ideal Cert.Pre_finite_inputs.S128 .f32)
    (x8 : FVec Ideal Cert.Pre_finite_inputs.S128x128 .f32)
    (x9 : FVec Ideal Cert.Pre_finite_inputs.S128 .f32)
    (x10 : FVec Ideal Cert.Pre_finite_inputs.S128x128 .f32)
    (x11 : FVec Ideal Cert.Pre_finite_inputs.S128 .f32)
    (x12 : FVec Ideal Cert.Pre_finite_inputs.S128x64 .f32)
    (x13 : FVec Ideal Cert.Pre_finite_inputs.S64 .f32)
    (x14 : FVec Ideal Cert.Pre_finite_inputs.S128 .f32)
    (x15 : FVec Ideal Cert.Pre_finite_inputs.S128 .f32)
    (x16 : FVec Ideal Cert.Pre_finite_inputs.S128 .f32)
    (x17 : FVec Ideal Cert.Pre_finite_inputs.S128 .f32)
    (x18 : FVec Ideal Cert.Pre_finite_inputs.S128 .f32)
    (x19 : FVec Ideal Cert.Pre_finite_inputs.S128 .f32)
    (x20 : FVec Ideal Cert.Pre_finite_inputs.S128 .f32)
    (x21 : FVec Ideal Cert.Pre_finite_inputs.S128 .f32)
    (h : Cert.Pre_finite_inputs.fn (F := Ideal) x0 x1 x2 x3 x4 x5 x6 x7 x8 x9 x10 x11 x12 x13 x14 x15 x16 x17 x18 x19 x20 x21 = (fun _ => 1#1)) :
    Facts x0 x2 x3 x4 x5 x6 x7 x8 x9 x10 x11 x12 x13 x14 x15 x16 x17 x18 x19 x20 x21 := by
  have e := congrFun h ValueIdx.ix0
  dsimp only [Cert.Pre_finite_inputs.fn, Cert.Pre_finite_inputs.fn_part1,
    Cert.Pre_finite_inputs.fn_part2,
    Cert.Pre_finite_inputs.fn_part3,
    Cert.Pre_finite_inputs.fn_part4,
    Cert.Pre_finite_inputs.fn_part5,
    Cert.Pre_finite_inputs.fn_part6] at e
  simp only [andi, IntOp.andi_eq_one] at e
  obtain ⟨⟨⟨⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩, h21⟩, n17⟩, n21⟩ := e
  exact {
    fin_0 := fin_of_all x0 _ _ _ h0
    fin_2 := fin_of_all x2 _ _ _ h2
    fin_3 := fin_of_all x3 _ _ _ h3
    fin_4 := fin_of_all x4 _ _ _ h4
    fin_5 := fin_of_all x5 _ _ _ h5
    fin_6 := fin_of_all x6 _ _ _ h6
    fin_7 := fin_of_all x7 _ _ _ h7
    fin_8 := fin_of_all x8 _ _ _ h8
    fin_9 := fin_of_all x9 _ _ _ h9
    fin_10 := fin_of_all x10 _ _ _ h10
    fin_11 := fin_of_all x11 _ _ _ h11
    fin_12 := fin_of_all x12 _ _ _ h12
    fin_13 := fin_of_all x13 _ _ _ h13
    fin_14 := fin_of_all x14 _ _ _ h14
    fin_15 := fin_of_all x15 _ _ _ h15
    fin_16 := fin_of_all x16 _ _ _ h16
    fin_17 := fin_of_all x17 _ _ _ h17
    fin_18 := fin_of_all x18 _ _ _ h18
    fin_19 := fin_of_all x19 _ _ _ h19
    fin_20 := fin_of_all x20 _ _ _ h20
    fin_21 := fin_of_all x21 _ _ _ h21
    nonneg_17 := nonneg_of_all x17 _ _ _ n17
    nonneg_21 := nonneg_of_all x21 _ _ _ n21 }

end Cert.PreFacts

end
-- ==== Proof.RefLayers.lean ====
/-
  The reference program's three layers, each read at an index (row r, column j) and identified with the
  specification's layer: for the first two layers the normalised linear output, its positive part, plus the layer's
  input; for the last layer the row-wise log-softmax of the linear output. Each layer's aggregated input is the
  layer's input plus the segment sum, which is kept as an opaque array here.

  A layer is read stage by stage: a bias or a normalisation parameter broadcast down the rows is the parameter at the
  column; a matrix product is the sum over the contracted coordinate; the positive part is the maximum with zero; the
  row maximum of the last layer is the fold of max over the row from the pattern of -inf, and taking the maximum of
  that pattern with it changes nothing; the sum of exponentials starts from zero.
-/
import proofs.«153170_j87926570483778_2_alg».proof.Proof.RefRead
import proofs.«153170_j87926570483778_2_alg».proof.Proof.Spec

noncomputable section

open scoped BigOperators

namespace Cert.RefLayers

open Cert.ReferenceIdeal Cert.ReferenceIdeal.Gen Idealize.ShloMosaic Idealize.ShloMosaic.TcCoe Idealize.SL.Sem Idealize.ShloMosaic.StableHlo
open Cert.GinSpec Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S128x64, .f32⟩ : BufTy).Contents (Elt Ideal)) (x13 : (⟨S64, .f32⟩ : BufTy).Contents (Elt Ideal))
  (x14 x15 x16 x17 x18 x19 x20 x21 : (⟨S128, .f32⟩ : BufTy).Contents (Elt Ideal))

/-! ## Layer 0 -/

/-- The first bias, broadcast down the rows, read at row r, column k. -/
theorem l0_b1 (r : Fin 100000) (k : Fin 128) : Read.val_main_v17 (F := Ideal) x3 (ix2 r k) = x3 (ix1 k) :=
  (Read.val_main_v17_apply x3 _).trans ((Read.val_main_v16_apply x3 _).trans (congrArg x3 (funext fun a => Fin.ext (by match a with | ⟨0, _⟩ => rfl))))
/-- The second bias, broadcast down the rows. -/
theorem l0_b2 (r : Fin 100000) (k : Fin 128) : Read.val_main_v22 (F := Ideal) x5 (ix2 r k) = x5 (ix1 k) :=
  (Read.val_main_v22_apply x5 _).trans ((Read.val_main_v21_apply x5 _).trans (congrArg x5 (funext fun a => Fin.ext (by match a with | ⟨0, _⟩ => rfl))))
/-- The normalisation's mean, broadcast down the rows. -/
theorem l0_m (r : Fin 100000) (k : Fin 128) : Read.val_main_v25 (F := Ideal) x16 (ix2 r k) = x16 (ix1 k) :=
  (Read.val_main_v25_apply x16 _).trans ((Read.val_main_v24_apply x16 _).trans (congrArg x16 (funext fun a => Fin.ext (by match a with | ⟨0, _⟩ => rfl))))
/-- The normalisation's gain, broadcast down the rows. -/
theorem l0_g (r : Fin 100000) (k : Fin 128) : Read.val_main_v34 (F := Ideal) x14 (ix2 r k) = x14 (ix1 k) :=
  (Read.val_main_v34_apply x14 _).trans ((Read.val_main_v33_apply x14 _).trans (congrArg x14 (funext fun a => Fin.ext (by match a with | ⟨0, _⟩ => rfl))))
/-- The normalisation's shift, broadcast down the rows. -/
theorem l0_be (r : Fin 100000) (k : Fin 128) : Read.val_main_v37 (F := Ideal) x15 (ix2 r k) = x15 (ix1 k) :=
  (Read.val_main_v37_apply x15 _).trans ((Read.val_main_v36_apply x15 _).trans (congrArg x15 (funext fun a => Fin.ext (by match a with | ⟨0, _⟩ => rfl))))
/-- The reciprocal standard deviation, rsqrt (v + eps), broadcast down the rows. -/
theorem l0_rs (r : Fin 100000) (k : Fin 128) :
    Read.val_main_v31 (F := Ideal) x17 (ix2 r k) = Ideal.rsqrt (x17 (ix1 k) + Ideal.ofBits .f32 0x3727C5AC#32) := by
  have e : Read.idx_main_v30 (Read.idx_main_v31 (ix2 r k)) = ix1 k := funext fun a => Fin.ext (by match a with | ⟨0, _⟩ => rfl)
  rw [Read.val_main_v31_apply, Read.val_main_v30_apply, e, Read.val_main_v29_apply, Read.val_main_v28_apply, Read.val_main_v27_apply, Read.val_main_cst_1_apply]
  rfl

/-- The first matrix product at row r, column k: the sum over the aggregated row. -/
theorem l0_d1 (r : Fin 100000) (k : Fin 128) :
    Read.val_main_v15 (F := Ideal) x0 x1 x2 (ix2 r k) = ∑ l : Fin 128, (x0 (ix2 r l) + Read.val_main_v13 (F := Ideal) x0 x1 (ix2 r l)) * x2 (ix2 l k) :=
  (Read.val_main_v15_apply x0 x1 x2 _).trans (Finset.sum_congr rfl fun l _ => by
    have hl : Read.lidx_main_v15 (ix2 r k) l = ix2 r l := funext fun a => Fin.ext (by match a with | ⟨0, _⟩ => rfl | ⟨1, _⟩ => rfl)
    have hr : Read.ridx_main_v15 (ix2 r k) l = ix2 l k := funext fun a => Fin.ext (by match a with | ⟨0, _⟩ => rfl | ⟨1, _⟩ => rfl)
    rw [hl, hr, Read.val_main_v14_apply]
    rfl)

/-- The hidden activation of node r, unit k. -/
theorem l0_hid (r : Fin 100000) (k : Fin 128) :
    Read.val_main_v19 (F := Ideal) x0 x1 x2 x3 (ix2 r k) = hid (fun i => x0 i + Read.val_main_v13 (F := Ideal) x0 x1 i) x2 (fun k => x3 (ix1 k)) r k := by
  rw [Read.val_main_v19_apply, Read.val_main_v18_apply, l0_b1, l0_d1, Read.val_main_call0_v0_apply, Read.val_main_call0_cst_apply]
  simp only [Ideal.addf_def, Ideal.maximumf_def, Ideal.ofBits_def, Ideal.ofBits_zero_f32]
  rfl

/-- The second matrix product plus its bias: the layer's linear output at row r, column j. -/
theorem l0_lin (r : Fin 100000) (j : Fin 128) :
    Read.val_main_v23 (F := Ideal) x0 x1 x2 x3 x4 x5 (ix2 r j) = lin (fun i => x0 i + Read.val_main_v13 (F := Ideal) x0 x1 i) x2 (fun k => x3 (ix1 k)) x4 (fun k => x5 (ix1 k)) r j := by
  rw [Read.val_main_v23_apply, l0_b2, Read.val_main_v20_apply]
  have hs : ∀ k : Fin 128, Read.val_main_v19 (F := Ideal) x0 x1 x2 x3 (Read.lidx_main_v20 (ix2 r j) k) * x4 (Read.ridx_main_v20 (ix2 r j) k)
      = hid (fun i => x0 i + Read.val_main_v13 (F := Ideal) x0 x1 i) x2 (fun k => x3 (ix1 k)) r k * x4 (ix2 k j) := fun k => by
    have hl : Read.lidx_main_v20 (ix2 r j) k = ix2 r k := funext fun a => Fin.ext (by match a with | ⟨0, _⟩ => rfl | ⟨1, _⟩ => rfl)
    have hr : Read.ridx_main_v20 (ix2 r j) k = ix2 k j := funext fun a => Fin.ext (by match a with | ⟨0, _⟩ => rfl | ⟨1, _⟩ => rfl)
    rw [hl, hr, l0_hid]
  rw [Finset.sum_congr rfl fun k _ => hs k]
  rfl

/-- Layer 0 of the reference: the normalisation of the linear output, its positive part, plus the layer's input. -/
theorem ref_layer0 :
    Read.val_main_v40 (F := Ideal) x0 x1 x2 x3 x4 x5 x14 x15 x16 x17
      = resid (fun r j => bn (lin (fun i => x0 i + Read.val_main_v13 (F := Ideal) x0 x1 i) x2 (fun k => x3 (ix1 k)) x4 (fun k => x5 (ix1 k)) r j)
          (x16 (ix1 j)) (Ideal.rsqrt (x17 (ix1 j) + Ideal.ofBits .f32 0x3727C5AC#32)) (x14 (ix1 j)) (x15 (ix1 j))) x0 := by
  funext i
  obtain ⟨r, j, rfl⟩ : ∃ (r : Fin 100000) (j : Fin 128), i = ix2 r j := ⟨i 0, i 1, eq_ix2 i⟩
  rw [Read.val_main_v40_apply, Read.val_main_v39_apply, Read.val_main_v38_apply, Read.val_main_v35_apply, Read.val_main_v32_apply, Read.val_main_v26_apply,
    l0_lin, l0_m, l0_rs, l0_g, l0_be, Read.val_main_call1_v0_apply, Read.val_main_call1_cst_apply]
  simp only [Ideal.addf_def, Ideal.subf_def, Ideal.mulf_def, Ideal.maximumf_def, Ideal.ofBits_def, Ideal.ofBits_zero_f32]
  rfl

/-! ## Layer 1 -/

/-- The first bias, broadcast down the rows, read at row r, column k. -/
theorem l1_b1 (r : Fin 100000) (k : Fin 128) : Read.val_main_v54 (F := Ideal) x7 (ix2 r k) = x7 (ix1 k) :=
  (Read.val_main_v54_apply x7 _).trans ((Read.val_main_v53_apply x7 _).trans (congrArg x7 (funext fun a => Fin.ext (by match a with | ⟨0, _⟩ => rfl))))
/-- The second bias, broadcast down the rows. -/
theorem l1_b2 (r : Fin 100000) (k : Fin 128) : Read.val_main_v59 (F := Ideal) x9 (ix2 r k) = x9 (ix1 k) :=
  (Read.val_main_v59_apply x9 _).trans ((Read.val_main_v58_apply x9 _).trans (congrArg x9 (funext fun a => Fin.ext (by match a with | ⟨0, _⟩ => rfl))))
/-- The normalisation's mean, broadcast down the rows. -/
theorem l1_m (r : Fin 100000) (k : Fin 128) : Read.val_main_v62 (F := Ideal) x20 (ix2 r k) = x20 (ix1 k) :=
  (Read.val_main_v62_apply x20 _).trans ((Read.val_main_v61_apply x20 _).trans (congrArg x20 (funext fun a => Fin.ext (by match a with | ⟨0, _⟩ => rfl))))
/-- The normalisation's gain, broadcast down the rows. -/
theorem l1_g (r : Fin 100000) (k : Fin 128) : Read.val_main_v71 (F := Ideal) x18 (ix2 r k) = x18 (ix1 k) :=
  (Read.val_main_v71_apply x18 _).trans ((Read.val_main_v70_apply x18 _).trans (congrArg x18 (funext fun a => Fin.ext (by match a with | ⟨0, _⟩ => rfl))))
/-- The normalisation's shift, broadcast down the rows. -/
theorem l1_be (r : Fin 100000) (k : Fin 128) : Read.val_main_v74 (F := Ideal) x19 (ix2 r k) = x19 (ix1 k) :=
  (Read.val_main_v74_apply x19 _).trans ((Read.val_main_v73_apply x19 _).trans (congrArg x19 (funext fun a => Fin.ext (by match a with | ⟨0, _⟩ => rfl))))
/-- The reciprocal standard deviation, rsqrt (v + eps), broadcast down the rows. -/
theorem l1_rs (r : Fin 100000) (k : Fin 128) :
    Read.val_main_v68 (F := Ideal) x21 (ix2 r k) = Ideal.rsqrt (x21 (ix1 k) + Ideal.ofBits .f32 0x3727C5AC#32) := by
  have e : Read.idx_main_v67 (Read.idx_main_v68 (ix2 r k)) = ix1 k := funext fun a => Fin.ext (by match a with | ⟨0, _⟩ => rfl)
  rw [Read.val_main_v68_apply, Read.val_main_v67_apply, e, Read.val_main_v66_apply, Read.val_main_v65_apply, Read.val_main_v64_apply, Read.val_main_cst_5_apply]
  rfl

/-- The first matrix product at row r, column k: the sum over the aggregated row. -/
theorem l1_d1 (r : Fin 100000) (k : Fin 128) :
    Read.val_main_v52 (F := Ideal) x0 x1 x2 x3 x4 x5 x6 x14 x15 x16 x17 (ix2 r k) = ∑ l : Fin 128, ((Read.val_main_v40 (F := Ideal) x0 x1 x2 x3 x4 x5 x14 x15 x16 x17) (ix2 r l) + Read.val_main_v50 (F := Ideal) x0 x1 x2 x3 x4 x5 x14 x15 x16 x17 (ix2 r l)) * x6 (ix2 l k) :=
  (Read.val_main_v52_apply x0 x1 x2 x3 x4 x5 x6 x14 x15 x16 x17 _).trans (Finset.sum_congr rfl fun l _ => by
    have hl : Read.lidx_main_v52 (ix2 r k) l = ix2 r l := funext fun a => Fin.ext (by match a with | ⟨0, _⟩ => rfl | ⟨1, _⟩ => rfl)
    have hr : Read.ridx_main_v52 (ix2 r k) l = ix2 l k := funext fun a => Fin.ext (by match a with | ⟨0, _⟩ => rfl | ⟨1, _⟩ => rfl)
    rw [hl, hr, Read.val_main_v51_apply]
    rfl)

/-- The hidden activation of node r, unit k. -/
theorem l1_hid (r : Fin 100000) (k : Fin 128) :
    Read.val_main_v56 (F := Ideal) x0 x1 x2 x3 x4 x5 x6 x7 x14 x15 x16 x17 (ix2 r k) = hid (fun i => (Read.val_main_v40 (F := Ideal) x0 x1 x2 x3 x4 x5 x14 x15 x16 x17) i + Read.val_main_v50 (F := Ideal) x0 x1 x2 x3 x4 x5 x14 x15 x16 x17 i) x6 (fun k => x7 (ix1 k)) r k := by
  rw [Read.val_main_v56_apply, Read.val_main_v55_apply, l1_b1, l1_d1, Read.val_main_call2_v0_apply, Read.val_main_call2_cst_apply]
  simp only [Ideal.addf_def, Ideal.maximumf_def, Ideal.ofBits_def, Ideal.ofBits_zero_f32]
  rfl

/-- The second matrix product plus its bias: the layer's linear output at row r, column j. -/
theorem l1_lin (r : Fin 100000) (j : Fin 128) :
    Read.val_main_v60 (F := Ideal) x0 x1 x2 x3 x4 x5 x6 x7 x8 x9 x14 x15 x16 x17 (ix2 r j) = lin (fun i => (Read.val_main_v40 (F := Ideal) x0 x1 x2 x3 x4 x5 x14 x15 x16 x17) i + Read.val_main_v50 (F := Ideal) x0 x1 x2 x3 x4 x5 x14 x15 x16 x17 i) x6 (fun k => x7 (ix1 k)) x8 (fun k => x9 (ix1 k)) r j := by
  rw [Read.val_main_v60_apply, l1_b2, Read.val_main_v57_apply]
  have hs : ∀ k : Fin 128, Read.val_main_v56 (F := Ideal) x0 x1 x2 x3 x4 x5 x6 x7 x14 x15 x16 x17 (Read.lidx_main_v57 (ix2 r j) k) * x8 (Read.ridx_main_v57 (ix2 r j) k)
      = hid (fun i => (Read.val_main_v40 (F := Ideal) x0 x1 x2 x3 x4 x5 x14 x15 x16 x17) i + Read.val_main_v50 (F := Ideal) x0 x1 x2 x3 x4 x5 x14 x15 x16 x17 i) x6 (fun k => x7 (ix1 k)) r k * x8 (ix2 k j) := fun k => by
    have hl : Read.lidx_main_v57 (ix2 r j) k = ix2 r k := funext fun a => Fin.ext (by match a with | ⟨0, _⟩ => rfl | ⟨1, _⟩ => rfl)
    have hr : Read.ridx_main_v57 (ix2 r j) k = ix2 k j := funext fun a => Fin.ext (by match a with | ⟨0, _⟩ => rfl | ⟨1, _⟩ => rfl)
    rw [hl, hr, l1_hid]
  rw [Finset.sum_congr rfl fun k _ => hs k]
  rfl

/-- Layer 1 of the reference: the normalisation of the linear output, its positive part, plus the layer's input. -/
theorem ref_layer1 :
    Read.val_main_v77 (F := Ideal) x0 x1 x2 x3 x4 x5 x6 x7 x8 x9 x14 x15 x16 x17 x18 x19 x20 x21
      = resid (fun r j => bn (lin (fun i => (Read.val_main_v40 (F := Ideal) x0 x1 x2 x3 x4 x5 x14 x15 x16 x17) i + Read.val_main_v50 (F := Ideal) x0 x1 x2 x3 x4 x5 x14 x15 x16 x17 i) x6 (fun k => x7 (ix1 k)) x8 (fun k => x9 (ix1 k)) r j)
          (x20 (ix1 j)) (Ideal.rsqrt (x21 (ix1 j) + Ideal.ofBits .f32 0x3727C5AC#32)) (x18 (ix1 j)) (x19 (ix1 j))) (Read.val_main_v40 (F := Ideal) x0 x1 x2 x3 x4 x5 x14 x15 x16 x17) := by
  funext i
  obtain ⟨r, j, rfl⟩ : ∃ (r : Fin 100000) (j : Fin 128), i = ix2 r j := ⟨i 0, i 1, eq_ix2 i⟩
  rw [Read.val_main_v77_apply, Read.val_main_v76_apply, Read.val_main_v75_apply, Read.val_main_v72_apply, Read.val_main_v69_apply, Read.val_main_v63_apply,
    l1_lin, l1_m, l1_rs, l1_g, l1_be, Read.val_main_call3_v0_apply, Read.val_main_call3_cst_apply]
  simp only [Ideal.addf_def, Ideal.subf_def, Ideal.mulf_def, Ideal.maximumf_def, Ideal.ofBits_def, Ideal.ofBits_zero_f32]
  rfl

/-! ## Layer 2 -/

/-- The first bias, broadcast down the rows, read at row r, column k. -/
theorem l2_b1 (r : Fin 100000) (k : Fin 128) : Read.val_main_v91 (F := Ideal) x11 (ix2 r k) = x11 (ix1 k) :=
  (Read.val_main_v91_apply x11 _).trans ((Read.val_main_v90_apply x11 _).trans (congrArg x11 (funext fun a => Fin.ext (by match a with | ⟨0, _⟩ => rfl))))
/-- The second bias (64 columns), broadcast down the rows. -/
theorem l2_b2 (r : Fin 100000) (j : Fin 64) : Read.val_main_v96 (F := Ideal) x13 (ix2 r j) = x13 (ix1 j) :=
  (Read.val_main_v96_apply x13 _).trans ((Read.val_main_v95_apply x13 _).trans (congrArg x13 (funext fun a => Fin.ext (by match a with | ⟨0, _⟩ => rfl))))

/-- The first matrix product at row r, column k: the sum over the aggregated row. -/
theorem l2_d1 (r : Fin 100000) (k : Fin 128) :
    Read.val_main_v89 (F := Ideal) x0 x1 x2 x3 x4 x5 x6 x7 x8 x9 x10 x14 x15 x16 x17 x18 x19 x20 x21 (ix2 r k) = ∑ l : Fin 128, ((Read.val_main_v77 (F := Ideal) x0 x1 x2 x3 x4 x5 x6 x7 x8 x9 x14 x15 x16 x17 x18 x19 x20 x21) (ix2 r l) + Read.val_main_v87 (F := Ideal) x0 x1 x2 x3 x4 x5 x6 x7 x8 x9 x14 x15 x16 x17 x18 x19 x20 x21 (ix2 r l)) * x10 (ix2 l k) :=
  (Read.val_main_v89_apply x0 x1 x2 x3 x4 x5 x6 x7 x8 x9 x10 x14 x15 x16 x17 x18 x19 x20 x21 _).trans (Finset.sum_congr rfl fun l _ => by
    have hl : Read.lidx_main_v89 (ix2 r k) l = ix2 r l := funext fun a => Fin.ext (by match a with | ⟨0, _⟩ => rfl | ⟨1, _⟩ => rfl)
    have hr : Read.ridx_main_v89 (ix2 r k) l = ix2 l k := funext fun a => Fin.ext (by match a with | ⟨0, _⟩ => rfl | ⟨1, _⟩ => rfl)
    rw [hl, hr, Read.val_main_v88_apply]
    rfl)

/-- The hidden activation of node r, unit k. -/
theorem l2_hid (r : Fin 100000) (k : Fin 128) :
    Read.val_main_v93 (F := Ideal) x0 x1 x2 x3 x4 x5 x6 x7 x8 x9 x10 x11 x14 x15 x16 x17 x18 x19 x20 x21 (ix2 r k) = hid (fun i => (Read.val_main_v77 (F := Ideal) x0 x1 x2 x3 x4 x5 x6 x7 x8 x9 x14 x15 x16 x17 x18 x19 x20 x21) i + Read.val_main_v87 (F := Ideal) x0 x1 x2 x3 x4 x5 x6 x7 x8 x9 x14 x15 x16 x17 x18 x19 x20 x21 i) x10 (fun k => x11 (ix1 k)) r k := by
  rw [Read.val_main_v93_apply, Read.val_main_v92_apply, l2_b1, l2_d1, Read.val_main_call4_v0_apply, Read.val_main_call4_cst_apply]
  simp only [Ideal.addf_def, Ideal.maximumf_def, Ideal.ofBits_def, Ideal.ofBits_zero_f32]
  rfl

/-- The second matrix product (into 64 columns) plus its bias: the layer's linear output at row r, column j. -/
theorem l2_lin (r : Fin 100000) (j : Fin 64) :
    Read.val_main_v97 (F := Ideal) x0 x1 x2 x3 x4 x5 x6 x7 x8 x9 x10 x11 x12 x13 x14 x15 x16 x17 x18 x19 x20 x21 (ix2 r j) = lin (fun i => (Read.val_main_v77 (F := Ideal) x0 x1 x2 x3 x4 x5 x6 x7 x8 x9 x14 x15 x16 x17 x18 x19 x20 x21) i + Read.val_main_v87 (F := Ideal) x0 x1 x2 x3 x4 x5 x6 x7 x8 x9 x14 x15 x16 x17 x18 x19 x20 x21 i) x10 (fun k => x11 (ix1 k)) x12 (fun k => x13 (ix1 k)) r j := by
  rw [Read.val_main_v97_apply, l2_b2, Read.val_main_v94_apply]
  have hs : ∀ k : Fin 128, Read.val_main_v93 (F := Ideal) x0 x1 x2 x3 x4 x5 x6 x7 x8 x9 x10 x11 x14 x15 x16 x17 x18 x19 x20 x21 (Read.lidx_main_v94 (ix2 r j) k) * x12 (Read.ridx_main_v94 (ix2 r j) k)
      = hid (fun i => (Read.val_main_v77 (F := Ideal) x0 x1 x2 x3 x4 x5 x6 x7 x8 x9 x14 x15 x16 x17 x18 x19 x20 x21) i + Read.val_main_v87 (F := Ideal) x0 x1 x2 x3 x4 x5 x6 x7 x8 x9 x14 x15 x16 x17 x18 x19 x20 x21 i) x10 (fun k => x11 (ix1 k)) r k * x12 (ix2 k j) := fun k => by
    have hl : Read.lidx_main_v94 (ix2 r j) k = ix2 r k := funext fun a => Fin.ext (by match a with | ⟨0, _⟩ => rfl | ⟨1, _⟩ => rfl)
    have hr : Read.ridx_main_v94 (ix2 r j) k = ix2 k j := funext fun a => Fin.ext (by match a with | ⟨0, _⟩ => rfl | ⟨1, _⟩ => rfl)
    rw [hl, hr, l2_hid]
  rw [Finset.sum_congr rfl fun k _ => hs k]
  rfl

/-- Row r of the reduced index with column q put back is (r, q). -/
theorem lift_row (h : S100000x64.Reduces [1] S100000) (r : Fin 100000) (q : Fin (S100000x64.size 1)) :
    h.lift (ix1 r) q = ix2 r (⟨q.val, q.isLt⟩ : Fin 64) := by
  funext c; apply Fin.ext
  fin_cases c <;> rfl

/-- The row maximum: the fold of max from the pattern of -inf over the row, and the maximum of that pattern with it. -/
theorem l2_max (r : Fin 100000) :
    Read.val_main_call5_v2 (F := Ideal) x0 x1 x2 x3 x4 x5 x6 x7 x8 x9 x10 x11 x12 x13 x14 x15 x16 x17 x18 x19 x20 x21 (ix1 r) = rowMax (fun q : Fin 64 => Read.val_main_v97 (F := Ideal) x0 x1 x2 x3 x4 x5 x6 x7 x8 x9 x10 x11 x12 x13 x14 x15 x16 x17 x18 x19 x20 x21 (ix2 r q)) := by
  have h : S100000x64.Reduces [1] S100000 := by decide
  have e0 : Read.val_main_call5_v0 (F := Ideal) x0 x1 x2 x3 x4 x5 x6 x7 x8 x9 x10 x11 x12 x13 x14 x15 x16 x17 x18 x19 x20 x21 (ix1 r) = rowMax (fun q : Fin 64 => Read.val_main_v97 (F := Ideal) x0 x1 x2 x3 x4 x5 x6 x7 x8 x9 x10 x11 x12 x13 x14 x15 x16 x17 x18 x19 x20 x21 (ix2 r q)) := by
    unfold Read.val_main_call5_v0
    rw [Host.reduce_eq_fold_single FloatOps.maximumf _ _ reducesTo_S100000x64_S100000_d1 h h_S_]
    have hf : (Read.val_main_v97 (F := Ideal) x0 x1 x2 x3 x4 x5 x6 x7 x8 x9 x10 x11 x12 x13 x14 x15 x16 x17 x18 x19 x20 x21) ∘ h.lift (ix1 r) = (fun q : Fin 64 => Read.val_main_v97 (F := Ideal) x0 x1 x2 x3 x4 x5 x6 x7 x8 x9 x10 x11 x12 x13 x14 x15 x16 x17 x18 x19 x20 x21 (ix2 r q)) :=
      funext fun q => congrArg (Read.val_main_v97 (F := Ideal) x0 x1 x2 x3 x4 x5 x6 x7 x8 x9 x10 x11 x12 x13 x14 x15 x16 x17 x18 x19 x20 x21) (lift_row h r q)
    exact congrArg (fun f => Finset.fold max (Ideal.ofBits .f32 0xFF800000#32) f (Finset.univ : Finset (Fin 64))) hf
  rw [Read.val_main_call5_v2_apply, e0, Read.val_main_call5_v1_apply, Read.val_main_call5_cst_0_apply]
  exact max_eq_right ((Finset.le_fold_max _).mpr (Or.inl le_rfl))

/-- The entry minus its row's maximum. -/
theorem l2_sub (r : Fin 100000) (q : Fin 64) :
    Read.val_main_call5_v5 (F := Ideal) x0 x1 x2 x3 x4 x5 x6 x7 x8 x9 x10 x11 x12 x13 x14 x15 x16 x17 x18 x19 x20 x21 (ix2 r q) = Read.val_main_v97 (F := Ideal) x0 x1 x2 x3 x4 x5 x6 x7 x8 x9 x10 x11 x12 x13 x14 x15 x16 x17 x18 x19 x20 x21 (ix2 r q) - rowMax (fun q : Fin 64 => Read.val_main_v97 (F := Ideal) x0 x1 x2 x3 x4 x5 x6 x7 x8 x9 x10 x11 x12 x13 x14 x15 x16 x17 x18 x19 x20 x21 (ix2 r q)) := by
  have e : Read.idx_main_call5_v3 (Read.idx_main_call5_v4 (ix2 r q)) = ix1 r := funext fun a => Fin.ext (by match a with | ⟨0, _⟩ => rfl)
  rw [Read.val_main_call5_v5_apply, Read.val_main_call5_v4_apply, Read.val_main_call5_v3_apply, e, l2_max]
  rfl

/-- The logarithm of the row's sum of exponentials. -/
theorem l2_log (r : Fin 100000) (q : Fin 64) :
    Read.val_main_call5_v10 (F := Ideal) x0 x1 x2 x3 x4 x5 x6 x7 x8 x9 x10 x11 x12 x13 x14 x15 x16 x17 x18 x19 x20 x21 (ix2 r q) = Ideal.log (∑ q' : Fin 64, Ideal.exp (Read.val_main_v97 (F := Ideal) x0 x1 x2 x3 x4 x5 x6 x7 x8 x9 x10 x11 x12 x13 x14 x15 x16 x17 x18 x19 x20 x21 (ix2 r q') - rowMax (fun q : Fin 64 => Read.val_main_v97 (F := Ideal) x0 x1 x2 x3 x4 x5 x6 x7 x8 x9 x10 x11 x12 x13 x14 x15 x16 x17 x18 x19 x20 x21 (ix2 r q)))) := by
  have e : Read.idx_main_call5_v8 (Read.idx_main_call5_v10 (ix2 r q)) = ix1 r := funext fun a => Fin.ext (by match a with | ⟨0, _⟩ => rfl)
  have hs : ∀ q' : Fin 64, Read.val_main_call5_v6 (F := Ideal) x0 x1 x2 x3 x4 x5 x6 x7 x8 x9 x10 x11 x12 x13 x14 x15 x16 x17 x18 x19 x20 x21 (Read.idx_main_call5_v7 (ix1 r) q')
      = Ideal.exp (Read.val_main_v97 (F := Ideal) x0 x1 x2 x3 x4 x5 x6 x7 x8 x9 x10 x11 x12 x13 x14 x15 x16 x17 x18 x19 x20 x21 (ix2 r q') - rowMax (fun q : Fin 64 => Read.val_main_v97 (F := Ideal) x0 x1 x2 x3 x4 x5 x6 x7 x8 x9 x10 x11 x12 x13 x14 x15 x16 x17 x18 x19 x20 x21 (ix2 r q))) := fun q' => by
    have e' : Read.idx_main_call5_v7 (ix1 r) q' = ix2 r q' := funext fun a => Fin.ext (by match a with | ⟨0, _⟩ => rfl | ⟨1, _⟩ => rfl)
    rw [e', Read.val_main_call5_v6_apply, l2_sub]
    rfl
  rw [Read.val_main_call5_v10_apply, Read.val_main_call5_v9_apply, Read.val_main_call5_v8_apply, e, Read.val_main_call5_v7_apply, Read.val_main_call5_cst_1_apply,
    Finset.sum_congr rfl fun q' _ => hs q']
  simp only [Ideal.ofBits_def, Ideal.ofBits_zero_f32, Ideal.hostUnary_log_def, zero_add]

/-- Layer 2 of the reference: the row-wise log-softmax of the linear output. -/
theorem ref_layer2 :
    Read.val_main_v98 (F := Ideal) x0 x1 x2 x3 x4 x5 x6 x7 x8 x9 x10 x11 x12 x13 x14 x15 x16 x17 x18 x19 x20 x21
      = lsm (fun r j => lin (fun i => (Read.val_main_v77 (F := Ideal) x0 x1 x2 x3 x4 x5 x6 x7 x8 x9 x14 x15 x16 x17 x18 x19 x20 x21) i + Read.val_main_v87 (F := Ideal) x0 x1 x2 x3 x4 x5 x6 x7 x8 x9 x14 x15 x16 x17 x18 x19 x20 x21 i) x10 (fun k => x11 (ix1 k)) x12 (fun k => x13 (ix1 k)) r j) := by
  funext i
  obtain ⟨r, q, rfl⟩ : ∃ (r : Fin 100000) (q : Fin 64), i = ix2 r q := ⟨i 0, i 1, eq_ix2 i⟩
  rw [Read.val_main_v98_apply, l2_log, l2_sub]
  simp only [Ideal.subf_def, l2_lin]
  rfl

end Cert.RefLayers

end
-- ==== Proof.Reals.lean ====
/-
  Three facts about real numbers inside the extended reals.

  * The single-precision pattern `0x3727C5AC` (sign 0, biased exponent 110, fraction `0x27C5AC`) denotes the positive real
    `(2^23 + 2606508) · 2^(110 - 127 - 23) = 10995116 · 2^(-40)`, the format's nearest value to `1e-5`.
  * The reciprocal square root of a non-negative real plus that constant is a real number: the argument is a positive real,
    so neither corner of the reciprocal square root (`⊥` below zero, `⊤` at zero) is met.
  * Every entry of the scatter-add of gathered entries of a real array into a real array is real: the entry is the operand's
    entry plus a finite sum of entries of the gathered array, and each of those is an entry of the source array.
-/
import proofs.«153170_j87926570483778_2_alg».proof.Proof.Spec
import Idealize.ShloMosaic.PureOps.Ideal
import Idealize.ShloMosaic.PureOps.Contract
import Idealize.ShloMosaic.PureOps.ShapeOps
import Idealize.ShloMosaic.PureOps.Ideal.Laws

noncomputable section

open scoped BigOperators

namespace Cert.GinReals

open Cert.GinSpec Idealize.ShloMosaic

/-! ## The constant added under the square root -/

/-- The pattern `0x3727C5AC` denotes the real `10995116 · 2^(-40)`. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- It is a positive real. -/
theorem eps_pos : ∃ e : ℝ, 0 < e ∧ Ideal.ofBits .f32 0x3727C5AC#32 = ((e : ℝ) : EReal) :=
  ⟨(10995116 : ℝ) * (2 : ℝ) ^ (-40 : ℤ), by positivity, ofBits_eps⟩

/-! ## The reciprocal square root of a non-negative real plus the constant -/

theorem rsqrt_real {v : EReal} (hv : IsReal v) (h0 : (0 : EReal) ≤ v) :
    IsReal (Ideal.rsqrt (v + Ideal.ofBits .f32 0x3727C5AC#32)) := by
  obtain ⟨r, rfl⟩ := hv
  obtain ⟨e, he, heq⟩ := eps_pos
  have hr : 0 ≤ r := EReal.coe_nonneg.mp h0
  have hpos : 0 < r + e := by linarith
  rw [heq, ← EReal.coe_add, Ideal.rsqrt_coe, if_neg (not_lt.mpr hpos.le), if_neg hpos.ne']
  exact ⟨_, rfl⟩

/-! ## The scatter-add of gathered entries -/

/-- Every entry of the scatter-add of a real array of updates into a real array is real: the operand's entry plus a finite sum
    of update entries. -/
theorem scatterAdd_real {s si su : Shape} {w : Nat} (sd : ScatterDims s si su) (z : FVec Ideal s .f32) (idx : IVec si w)
    (upd : FVec Ideal su .f32) (hz : ∀ i, IsReal (z i)) (hu : ∀ j, IsReal (upd j)) :
    ∀ i, IsReal (Host.scatterAdd sd z idx upd i) := fun i =>
  (hz i).add (isReal_sum _ _ fun j _ => hu j)

/-- The gathered rows, narrowed to the 16-bit format and widened back (both the identity on extended reals), scatter-added
    into a real array. -/
theorem scatterAdd_gather_real {s sx si su si' : Shape} {w w' : Nat} (sd : ScatterDims s si su) (gd : GatherDims sx si' su)
    (z : FVec Ideal s .f32) (X : FVec Ideal sx .f32) (idx : IVec si w) (idx' : IVec si' w')
    (h1 : FTy.bf16.bits < FTy.f32.bits) (hz : ∀ i, IsReal (z i)) (hX : ∀ i, IsReal (X i)) :
    ∀ i, IsReal (Host.scatterAdd sd z idx (extf .f32 (Host.gather gd (truncf .bf16 X h1) idx') h1) i) :=
  scatterAdd_real sd z idx _ hz fun j => hX _

/-- The same without the two format changes. -/
theorem scatterAdd_gather_real' {s sx si su si' : Shape} {w w' : Nat} (sd : ScatterDims s si su) (gd : GatherDims sx si' su)
    (z : FVec Ideal s .f32) (X : FVec Ideal sx .f32) (idx : IVec si w) (idx' : IVec si' w')
    (hz : ∀ i, IsReal (z i)) (hX : ∀ i, IsReal (X i)) :
    ∀ i, IsReal (Host.scatterAdd sd z idx (Host.gather gd X idx') i) :=
  scatterAdd_real sd z idx _ hz fun j => hX _

end Cert.GinReals

end
-- ==== Proof.Bridge.lean ====
/-
  The two programs compute one function. The kernel program folds the normalisation of the first two layers into the second
  weight matrix and bias on the host (a scale `g · rsqrt (v + ε)` per column) and adds the aggregated features to the node's own
  in the other order; the reference normalises the layer's output afterwards. Under the precondition every argument entry is a
  real number and the variances are nonnegative, so `v + ε` is positive, the scale is a real number, and every intermediate of
  the first two layers is a real number: the neighbour aggregation is a finite sum of rows, and sums, products and maxima of
  reals are reals. On reals the folded and the unfolded forms agree (`Cert.GinSpec.lin_fold`), layer by layer; the last layer is
  the same expression on both sides up to the order of one addition.
-/
import proofs.«153170_j87926570483778_2_alg».proof.Proof.KHost
import proofs.«153170_j87926570483778_2_alg».proof.Proof.RefLayers
import proofs.«153170_j87926570483778_2_alg».proof.Proof.PreFacts
import proofs.«153170_j87926570483778_2_alg».proof.Proof.Reals
import Idealize.ShloMosaic.Lib.ValueLayout
import Idealize.ShloMosaic.Lib.Pipeline.Value

noncomputable section

open scoped BigOperators

namespace Cert.Bridge

open Cert.KernelIdeal Cert.KernelIdeal.Gen Cert.KernelIdeal.Host Cert.KernelIdeal.Region Cert.GinSpec Cert.GinReals
open Idealize.ShloMosaic Idealize.ShloMosaic.ValueIdx

/-- The reciprocal standard deviation of column `j`. -/
def rsOf (v : FVec Ideal S128 .f32) (j : Fin 128) : EReal := Ideal.rsqrt (v (ix1 j) + Ideal.ofBits .f32 0x3727C5AC#32)

/-! ## The host operators read at an index -/

theorem row128_apply (b : FVec Ideal S128 .f32) (k : Fin 128) : row128 b (ix2 (0 : Fin 1) k) = b (ix1 k) := by
  unfold row128; exact shapeCast_a_1a_apply b shapeCasts_S128_S1x128 0 k

theorem row64_apply (b : FVec Ideal S64 .f32) (k : Fin 64) : row64 b (ix2 (0 : Fin 1) k) = b (ix1 k) := by
  unfold row64; exact shapeCast_a_1a_apply b shapeCasts_S64_S1x64 0 k

theorem scaleOf_apply (g v : FVec Ideal S128 .f32) (j : Fin 128) : scaleOf g v (ix1 j) = g (ix1 j) * rsOf v j := rfl

theorem w2f_apply (W2 : FVec Ideal S128x128 .f32) (g v : FVec Ideal S128 .f32) (k j : Fin 128) :
    w2f W2 g v (ix2 k j) = W2 (ix2 k j) * (g (ix1 j) * rsOf v j) := by
  unfold w2f
  show W2 (ix2 k j) * (broadcastInDim S128x128 ![0, 1] bcast_S1x128_S128x128_0_1 (broadcastInDim S1x128 ![1] bcast_S128_S1x128_1 (scaleOf g v))) (ix2 k j) = _
  rw [broadcastInDim_apply ![0, 1] bcast_S1x128_S128x128_0_1 _ (ix2 k j) (ix2 (0 : Fin 1) j) (fun a => by match a with | ⟨0, _⟩ => rfl | ⟨1, _⟩ => rfl),
    broadcastInDim_apply ![1] bcast_S128_S1x128_1 _ (ix2 (0 : Fin 1) j) (ix1 j) (fun a => by match a with | ⟨0, _⟩ => rfl), scaleOf_apply]

theorem b2fr_apply (b2 mu g v be : FVec Ideal S128 .f32) (j : Fin 128) :
    b2fr b2 mu g v be (ix2 (0 : Fin 1) j) = (b2 (ix1 j) - mu (ix1 j)) * (g (ix1 j) * rsOf v j) + be (ix1 j) := by
  unfold b2fr
  rw [shapeCast_a_1a_apply _ shapeCasts_S128_S1x128 0 j]
  rfl

/-! ## One normalised layer: the folded form is the unfolded form on reals -/

theorem bn_real {z mu rs g be : EReal} (hz : IsReal z) (hm : IsReal mu) (hrs : IsReal rs) (hg : IsReal g) (hbe : IsReal be) :
    IsReal (bn z mu rs g be) := by
  unfold bn; exact (((hz.sub hm).mul hrs).mul hg).add hbe

/-- The unfolded (reference) form of a normalised layer. -/
def layerR (a1 a0 : FVec Ideal S100000x128 .f32) (W1 : FVec Ideal S128x128 .f32) (b1 : FVec Ideal S128 .f32) (W2 : FVec Ideal S128x128 .f32)
    (b2 mu g v be : FVec Ideal S128 .f32) : FVec Ideal S100000x128 .f32 :=
  resid (fun r j => bn (lin (N := 100000) (fun i => a1 i + a0 i) W1 (fun k => b1 (ix1 k)) W2 (fun k => b2 (ix1 k)) r j)
    (mu (ix1 j)) (rsOf v j) (g (ix1 j)) (be (ix1 j))) a1

theorem gbn_eq (a0 a1 : FVec Ideal S100000x128 .f32) (W1 : FVec Ideal S128x128 .f32) (b1 : FVec Ideal S128 .f32) (W2 : FVec Ideal S128x128 .f32)
    (b2 mu g v be : FVec Ideal S128 .f32) (h0 : ∀ i, IsReal (a0 i)) (h1 : ∀ i, IsReal (a1 i)) (hW1 : ∀ i, IsReal (W1 i)) (hb1 : ∀ i, IsReal (b1 i))
    (hW2 : ∀ i, IsReal (W2 i)) (hb2 : ∀ i, IsReal (b2 i)) (hmu : ∀ i, IsReal (mu i)) (hg : ∀ i, IsReal (g i)) (hbe : ∀ i, IsReal (be i))
    (hrs : ∀ j, IsReal (rsOf v j)) :
    GBN a0 a1 W1 (row128 b1) (w2f W2 g v) (b2fr b2 mu g v be) = layerR a1 a0 W1 b1 W2 b2 mu g v be := by
  unfold GBN layerR
  have e1 : (fun k => row128 b1 (ix2 (0 : Fin 1) k)) = fun k => b1 (ix1 k) := funext fun k => row128_apply b1 k
  have e2 : w2f W2 g v = fun i => W2 i * (g (ix1 (i 1)) * rsOf v (i 1)) := funext fun i => by
    obtain ⟨k, j, rfl⟩ : ∃ (k j : Fin 128), i = ix2 k j := ⟨i 0, i 1, eq_ix2 i⟩
    exact w2f_apply W2 g v k j
  have e3 : (fun k => b2fr b2 mu g v be (ix2 (0 : Fin 1) k)) = fun j => (b2 (ix1 j) - mu (ix1 j)) * (g (ix1 j) * rsOf v j) + be (ix1 j) :=
    funext fun j => b2fr_apply b2 mu g v be j
  have e4 : (fun i => a0 i + a1 i) = fun i => a1 i + a0 i := funext fun i => add_comm _ _
  rw [e1, e2, e3, e4]
  funext i
  obtain ⟨r, j, rfl⟩ : ∃ (r : Fin 100000) (j : Fin 128), i = ix2 r j := ⟨i 0, i 1, eq_ix2 i⟩
  have hf := lin_fold (N := 100000) (a := fun i => a1 i + a0 i) (W1 := W1) (b1 := fun k => b1 (ix1 k)) (W2 := W2) (b2 := fun k => b2 (ix1 k))
    (m := fun k => mu (ix1 k)) (rs := fun k => rsOf v k) (g := fun k => g (ix1 k)) (be := fun k => be (ix1 k))
    (fun i => (h1 i).add (h0 i)) hW1 (fun k => hb1 _) hW2 (fun k => hb2 _) (fun k => hmu _) hrs (fun k => hg _) (fun k => hbe _) r j
  exact congrArg (fun z => max z 0 + a1 (ix2 r j)) hf

theorem layerR_real (a1 a0 : FVec Ideal S100000x128 .f32) (W1 : FVec Ideal S128x128 .f32) (b1 : FVec Ideal S128 .f32) (W2 : FVec Ideal S128x128 .f32)
    (b2 mu g v be : FVec Ideal S128 .f32) (h0 : ∀ i, IsReal (a0 i)) (h1 : ∀ i, IsReal (a1 i)) (hW1 : ∀ i, IsReal (W1 i)) (hb1 : ∀ i, IsReal (b1 i))
    (hW2 : ∀ i, IsReal (W2 i)) (hb2 : ∀ i, IsReal (b2 i)) (hmu : ∀ i, IsReal (mu i)) (hg : ∀ i, IsReal (g i)) (hbe : ∀ i, IsReal (be i))
    (hrs : ∀ j, IsReal (rsOf v j)) : ∀ i, IsReal (layerR a1 a0 W1 b1 W2 b2 mu g v be i) := by
  unfold layerR
  exact resid_real (fun r j => bn_real (lin_real (fun i => (h1 i).add (h0 i)) hW1 (fun k => hb1 _) hW2 (fun k => hb2 _) r j) (hmu _) (hrs j) (hg _) (hbe _)) h1

/-! ## The aggregation: the same term in both programs, and real on a real array -/

theorem aggOf_real (X : FVec Ideal S100000x128 .f32) (v1 v3 : IVec S1600000 32) (hX : ∀ i, IsReal (X i)) : ∀ i, IsReal (aggOf X v1 v3 i) := by
  unfold aggOf
  exact scatterAdd_gather_real _ _ _ X _ _ bitsLt_bf16_f32 (fun i => ⟨0, Ideal.ofBits_zero_f32⟩) hX

section Programs

variable (x0 : FVec Ideal S100000x128 .f32) (x1 : IVec S2x1600000 32)
  (x2 : FVec Ideal S128x128 .f32) (x3 : FVec Ideal S128 .f32) (x4 : FVec Ideal S128x128 .f32) (x5 : FVec Ideal S128 .f32)
  (x6 : FVec Ideal S128x128 .f32) (x7 : FVec Ideal S128 .f32) (x8 : FVec Ideal S128x128 .f32) (x9 : FVec Ideal S128 .f32)
  (x10 : FVec Ideal S128x128 .f32) (x11 : FVec Ideal S128 .f32) (x12 : FVec Ideal S128x64 .f32) (x13 : FVec Ideal S64 .f32)
  (x14 x15 x16 x17 x18 x19 x20 x21 : FVec Ideal S128 .f32)

theorem agg0 : aggOf x0 (srcOf x1) (dstOf x1) = Cert.ReferenceIdeal.Read.val_main_v13 (F := Ideal) x0 x1 := rfl

theorem agg1 : aggOf (Cert.ReferenceIdeal.Read.val_main_v40 (F := Ideal) x0 x1 x2 x3 x4 x5 x14 x15 x16 x17) (srcOf x1) (dstOf x1) = Cert.ReferenceIdeal.Read.val_main_v50 (F := Ideal) x0 x1 x2 x3 x4 x5 x14 x15 x16 x17 := rfl

theorem agg2 : aggOf (Cert.ReferenceIdeal.Read.val_main_v77 (F := Ideal) x0 x1 x2 x3 x4 x5 x6 x7 x8 x9 x14 x15 x16 x17 x18 x19 x20 x21) (srcOf x1) (dstOf x1) = Cert.ReferenceIdeal.Read.val_main_v87 (F := Ideal) x0 x1 x2 x3 x4 x5 x6 x7 x8 x9 x14 x15 x16 x17 x18 x19 x20 x21 := rfl

/-- The kernel program's first layer output, as a function of the argument arrays. -/
def X1of : FVec Ideal S100000x128 .f32 :=
  GBN (aggOf x0 (srcOf x1) (dstOf x1)) x0 x2 (row128 x3) (w2f x4 x14 x17) (b2fr x5 x16 x14 x17 x15)

/-- Its second layer output. -/
def X2of : FVec Ideal S100000x128 .f32 :=
  GBN (aggOf (X1of x0 x1 x2 x3 x4 x5 x14 x15 x16 x17) (srcOf x1) (dstOf x1)) (X1of x0 x1 x2 x3 x4 x5 x14 x15 x16 x17) x6 (row128 x7) (w2f x8 x18 x21) (b2fr x9 x20 x18 x21 x19)

/-- Its result. -/
def OUTof : FVec Ideal S100000x64 .f32 :=
  GLS (aggOf (X2of x0 x1 x2 x3 x4 x5 x6 x7 x8 x9 x14 x15 x16 x17 x18 x19 x20 x21) (srcOf x1) (dstOf x1)) (X2of x0 x1 x2 x3 x4 x5 x6 x7 x8 x9 x14 x15 x16 x17 x18 x19 x20 x21) x10 (row128 x11) x12 (row64 x13)

theorem rs0_real (hF : Cert.PreFacts.Facts x0 x2 x3 x4 x5 x6 x7 x8 x9 x10 x11 x12 x13 x14 x15 x16 x17 x18 x19 x20 x21) : ∀ j, IsReal (rsOf x17 j) :=
  fun j => rsqrt_real (isReal_of_ne (hF.fin_17 _)) (hF.nonneg_17 _)

theorem rs1_real (hF : Cert.PreFacts.Facts x0 x2 x3 x4 x5 x6 x7 x8 x9 x10 x11 x12 x13 x14 x15 x16 x17 x18 x19 x20 x21) : ∀ j, IsReal (rsOf x21 j) :=
  fun j => rsqrt_real (isReal_of_ne (hF.fin_21 _)) (hF.nonneg_21 _)

theorem x1_layer (hF : Cert.PreFacts.Facts x0 x2 x3 x4 x5 x6 x7 x8 x9 x10 x11 x12 x13 x14 x15 x16 x17 x18 x19 x20 x21) : (X1of x0 x1 x2 x3 x4 x5 x14 x15 x16 x17) = layerR x0 (aggOf x0 (srcOf x1) (dstOf x1)) x2 x3 x4 x5 x16 x14 x17 x15 := by
  unfold X1of
  exact gbn_eq (aggOf x0 (srcOf x1) (dstOf x1)) x0 x2 x3 x4 x5 x16 x14 x17 x15 (aggOf_real x0 _ _ (fun i => isReal_of_ne (hF.fin_0 i))) (fun i => isReal_of_ne (hF.fin_0 i)) (fun i => isReal_of_ne (hF.fin_2 i)) (fun i => isReal_of_ne (hF.fin_3 i)) (fun i => isReal_of_ne (hF.fin_4 i)) (fun i => isReal_of_ne (hF.fin_5 i)) (fun i => isReal_of_ne (hF.fin_16 i)) (fun i => isReal_of_ne (hF.fin_14 i)) (fun i => isReal_of_ne (hF.fin_15 i))
    (rs0_real x0 x2 x3 x4 x5 x6 x7 x8 x9 x10 x11 x12 x13 x14 x15 x16 x17 x18 x19 x20 x21 hF)

theorem x1_real (hF : Cert.PreFacts.Facts x0 x2 x3 x4 x5 x6 x7 x8 x9 x10 x11 x12 x13 x14 x15 x16 x17 x18 x19 x20 x21) : ∀ i, IsReal ((X1of x0 x1 x2 x3 x4 x5 x14 x15 x16 x17) i) := by
  rw [x1_layer x0 x1 x2 x3 x4 x5 x6 x7 x8 x9 x10 x11 x12 x13 x14 x15 x16 x17 x18 x19 x20 x21 hF]
  exact layerR_real x0 (aggOf x0 (srcOf x1) (dstOf x1)) x2 x3 x4 x5 x16 x14 x17 x15 (aggOf_real x0 _ _ (fun i => isReal_of_ne (hF.fin_0 i))) (fun i => isReal_of_ne (hF.fin_0 i)) (fun i => isReal_of_ne (hF.fin_2 i)) (fun i => isReal_of_ne (hF.fin_3 i)) (fun i => isReal_of_ne (hF.fin_4 i)) (fun i => isReal_of_ne (hF.fin_5 i)) (fun i => isReal_of_ne (hF.fin_16 i)) (fun i => isReal_of_ne (hF.fin_14 i)) (fun i => isReal_of_ne (hF.fin_15 i))
    (rs0_real x0 x2 x3 x4 x5 x6 x7 x8 x9 x10 x11 x12 x13 x14 x15 x16 x17 x18 x19 x20 x21 hF)

/-- The first layer's outputs agree. -/
theorem x1_ref (hF : Cert.PreFacts.Facts x0 x2 x3 x4 x5 x6 x7 x8 x9 x10 x11 x12 x13 x14 x15 x16 x17 x18 x19 x20 x21) : (X1of x0 x1 x2 x3 x4 x5 x14 x15 x16 x17) = Cert.ReferenceIdeal.Read.val_main_v40 (F := Ideal) x0 x1 x2 x3 x4 x5 x14 x15 x16 x17 := by
  refine (x1_layer x0 x1 x2 x3 x4 x5 x6 x7 x8 x9 x10 x11 x12 x13 x14 x15 x16 x17 x18 x19 x20 x21 hF).trans ?_
  unfold layerR
  rw [agg0]
  exact (Cert.RefLayers.ref_layer0 x0 x1 x2 x3 x4 x5 x14 x15 x16 x17).symm

theorem x2_layer (hF : Cert.PreFacts.Facts x0 x2 x3 x4 x5 x6 x7 x8 x9 x10 x11 x12 x13 x14 x15 x16 x17 x18 x19 x20 x21) : (X2of x0 x1 x2 x3 x4 x5 x6 x7 x8 x9 x14 x15 x16 x17 x18 x19 x20 x21) = layerR (X1of x0 x1 x2 x3 x4 x5 x14 x15 x16 x17) (aggOf (X1of x0 x1 x2 x3 x4 x5 x14 x15 x16 x17) (srcOf x1) (dstOf x1)) x6 x7 x8 x9 x20 x18 x21 x19 := by
  unfold X2of
  exact gbn_eq (aggOf (X1of x0 x1 x2 x3 x4 x5 x14 x15 x16 x17) (srcOf x1) (dstOf x1)) (X1of x0 x1 x2 x3 x4 x5 x14 x15 x16 x17) x6 x7 x8 x9 x20 x18 x21 x19 (aggOf_real _ _ _ (x1_real x0 x1 x2 x3 x4 x5 x6 x7 x8 x9 x10 x11 x12 x13 x14 x15 x16 x17 x18 x19 x20 x21 hF)) (x1_real x0 x1 x2 x3 x4 x5 x6 x7 x8 x9 x10 x11 x12 x13 x14 x15 x16 x17 x18 x19 x20 x21 hF)
    (fun i => isReal_of_ne (hF.fin_6 i)) (fun i => isReal_of_ne (hF.fin_7 i)) (fun i => isReal_of_ne (hF.fin_8 i)) (fun i => isReal_of_ne (hF.fin_9 i)) (fun i => isReal_of_ne (hF.fin_20 i)) (fun i => isReal_of_ne (hF.fin_18 i)) (fun i => isReal_of_ne (hF.fin_19 i)) (rs1_real x0 x2 x3 x4 x5 x6 x7 x8 x9 x10 x11 x12 x13 x14 x15 x16 x17 x18 x19 x20 x21 hF)

/-- The second layer's outputs agree. -/
theorem x2_ref (hF : Cert.PreFacts.Facts x0 x2 x3 x4 x5 x6 x7 x8 x9 x10 x11 x12 x13 x14 x15 x16 x17 x18 x19 x20 x21) : (X2of x0 x1 x2 x3 x4 x5 x6 x7 x8 x9 x14 x15 x16 x17 x18 x19 x20 x21) = Cert.ReferenceIdeal.Read.val_main_v77 (F := Ideal) x0 x1 x2 x3 x4 x5 x6 x7 x8 x9 x14 x15 x16 x17 x18 x19 x20 x21 := by
  refine (x2_layer x0 x1 x2 x3 x4 x5 x6 x7 x8 x9 x10 x11 x12 x13 x14 x15 x16 x17 x18 x19 x20 x21 hF).trans ?_
  rw [x1_ref x0 x1 x2 x3 x4 x5 x6 x7 x8 x9 x10 x11 x12 x13 x14 x15 x16 x17 x18 x19 x20 x21 hF]
  unfold layerR
  rw [agg1]
  exact (Cert.RefLayers.ref_layer1 x0 x1 x2 x3 x4 x5 x6 x7 x8 x9 x14 x15 x16 x17 x18 x19 x20 x21).symm

/-- THE RESULTS AGREE: the kernel program's function of the arguments is the reference's last stage. -/
theorem out_ref (hF : Cert.PreFacts.Facts x0 x2 x3 x4 x5 x6 x7 x8 x9 x10 x11 x12 x13 x14 x15 x16 x17 x18 x19 x20 x21) : OUTof x0 x1 x2 x3 x4 x5 x6 x7 x8 x9 x10 x11 x12 x13 x14 x15 x16 x17 x18 x19 x20 x21 = Cert.ReferenceIdeal.Read.val_main_v98 (F := Ideal) x0 x1 x2 x3 x4 x5 x6 x7 x8 x9 x10 x11 x12 x13 x14 x15 x16 x17 x18 x19 x20 x21 := by
  unfold OUTof GLS
  rw [x2_ref x0 x1 x2 x3 x4 x5 x6 x7 x8 x9 x10 x11 x12 x13 x14 x15 x16 x17 x18 x19 x20 x21 hF]
  have e1 : (fun k => row128 x11 (ix2 (0 : Fin 1) k)) = fun k => x11 (ix1 k) := funext fun k => row128_apply x11 k
  have e2 : (fun k => row64 x13 (ix2 (0 : Fin 1) k)) = fun k => x13 (ix1 k) := funext fun k => row64_apply x13 k
  have e4 : (fun i => aggOf (Cert.ReferenceIdeal.Read.val_main_v77 (F := Ideal) x0 x1 x2 x3 x4 x5 x6 x7 x8 x9 x14 x15 x16 x17 x18 x19 x20 x21) (srcOf x1) (dstOf x1) i + (Cert.ReferenceIdeal.Read.val_main_v77 (F := Ideal) x0 x1 x2 x3 x4 x5 x6 x7 x8 x9 x14 x15 x16 x17 x18 x19 x20 x21) i) = fun i => (Cert.ReferenceIdeal.Read.val_main_v77 (F := Ideal) x0 x1 x2 x3 x4 x5 x6 x7 x8 x9 x14 x15 x16 x17 x18 x19 x20 x21) i + Cert.ReferenceIdeal.Read.val_main_v87 (F := Ideal) x0 x1 x2 x3 x4 x5 x6 x7 x8 x9 x14 x15 x16 x17 x18 x19 x20 x21 i :=
    funext fun i => by rw [agg2]; exact add_comm _ _
  rw [e1, e2, e4]
  exact (Cert.RefLayers.ref_layer2 x0 x1 x2 x3 x4 x5 x6 x7 x8 x9 x10 x11 x12 x13 x14 x15 x16 x17 x18 x19 x20 x21).symm

end Programs

end Cert.Bridge

end
-- ==== Proof.lean ====
/-
  A three-layer graph network with sum aggregation over 100000 nodes and 1600000 edges: three Pallas kernels (one per layer,
  each tiling the nodes in ten blocks of 10000 rows) among host operations, against a plain jnp reference.

  The frames of the two kernel programs are the generated ones; the reference's frame is its run with the result dropped.
  The idealization rewrote nothing, so `preserves` is `True`.

  The value claim. On the extended reals the kernel program computes, layer by layer, `relu(lin) + x` with the normalisation of
  the first two layers folded into the second weight matrix and bias on the host, and a row-wise log-softmax last
  (Proof/KBody.lean: each kernel body on a block; Proof/KRegion.lean: from blocks to arrays; Proof/KHost.lean: the host
  operations and the run's boundaries; Proof/KRun.lean: the run with the result named). The reference normalises after the
  linear map (Proof/RefLayers.lean over the reference's stages; Proof/RefRunVal.lean: its run). Under the precondition — every
  float argument finite and the two variance vectors nonnegative (Proof/PreFacts.lean) — every intermediate of the first two
  layers is a real number and the folded and unfolded forms agree (Proof/Spec.lean `lin_fold`, Proof/Reals.lean,
  Proof/Bridge.lean).
-/
import proofs.«153170_j87926570483778_2_alg».proof.Defs
import proofs.«153170_j87926570483778_2_alg».proof.Proof.Gen.Kernel
import proofs.«153170_j87926570483778_2_alg».proof.Proof.Gen.Kernel.Skeleton
import proofs.«153170_j87926570483778_2_alg».proof.Proof.Gen.Kernel.Launch
import proofs.«153170_j87926570483778_2_alg».proof.Proof.Gen.Kernel.Points
import proofs.«153170_j87926570483778_2_alg».proof.Proof.Gen.Kernel.Frame
import proofs.«153170_j87926570483778_2_alg».proof.Proof.Gen.KernelIdeal
import proofs.«153170_j87926570483778_2_alg».proof.Proof.Gen.KernelIdeal.Skeleton
import proofs.«153170_j87926570483778_2_alg».proof.Proof.Gen.KernelIdeal.Launch
import proofs.«153170_j87926570483778_2_alg».proof.Proof.Gen.KernelIdeal.Points
import proofs.«153170_j87926570483778_2_alg».proof.Proof.Gen.KernelIdeal.Frame
import proofs.«153170_j87926570483778_2_alg».proof.Proof.Gen.ReferenceIdeal
import proofs.«153170_j87926570483778_2_alg».proof.Proof.Gen.Pre_finite_inputs
import proofs.«153170_j87926570483778_2_alg».proof.Proof.KRun
import proofs.«153170_j87926570483778_2_alg».proof.Proof.KHost
import proofs.«153170_j87926570483778_2_alg».proof.Proof.RefRunVal
import proofs.«153170_j87926570483778_2_alg».proof.Proof.PreFacts
import proofs.«153170_j87926570483778_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run_val (F := Ideal) m ρ)

/-- The idealization rewrote no operation. -/
theorem preserves : Cert.preserves_Kernel_KernelIdeal := trivial

/-- Both programs end with the same result: the kernel program's run leaves the three layers composed on its arguments, the
    reference's run its last stage on arguments that agree, and under the precondition the two are one function. -/
theorem algebraic : Cert.algebraic_KernelIdeal_ReferenceIdeal := by
  intro m ρ m' ρ' hpre hagree
  refine ⟨fun c => Cert.KernelIdeal.Host.OUT m c, ?_, ?_⟩
  · exact (θ_run Cert.KernelIdeal.defs _ _).mono
      (fun r h c => ⟨(h c).1.trans (Cert.KernelIdeal.Host.kernel_value m ρ c), (h c).2⟩) (Cert.KernelIdeal.Gen.run_value m ρ)
  · refine (θ_run Cert.ReferenceIdeal.defs _ _).mono (fun r h c => ⟨(h c).1.trans ?_, (h c).2⟩)
      (Cert.ReferenceIdeal.RefValue.run_val (F := Ideal) m' ρ')
    obtain ⟨a0, a1, a2, a3, a4, a5, a6, a7, a8, a9, a10, a11, a12, a13, a14, a15, a16, a17, a18, a19, a20, a21⟩ := hagree c
    rw [a0, a1, a2, a3, a4, a5, a6, a7, a8, a9, a10, a11, a12, a13, a14, a15, a16, a17, a18, a19, a20, a21]
    have hF := Cert.PreFacts.of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (hpre c)
    exact (Cert.Bridge.out_ref (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) hF).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
